-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x32x1280 : Shape := ⟨3, ![32, 32, 1280]⟩
abbrev S2560x1280 : Shape := ⟨2, ![2560, 1280]⟩
abbrev S1280 : Shape := ⟨1, ![1280]⟩
abbrev S1280x1280 : Shape := ⟨2, ![1280, 1280]⟩
abbrev S_ : Shape := ⟨0, ![]⟩

class Facts : Prop where
  bcast_S_S32x32x1280 : S_.BroadcastsInDim S32x32x1280 (![] : Fin 0 → Fin S32x32x1280.rank)
  reducesTo_S32x32x1280_S_d0_1_2 : S32x32x1280.ReducesTo [0, 1, 2] S_
  h_S_ : 0 < S_.numel
  bcast_S_S2560x1280 : S_.BroadcastsInDim S2560x1280 (![] : Fin 0 → Fin S2560x1280.rank)
  reducesTo_S2560x1280_S_d0_1 : S2560x1280.ReducesTo [0, 1] S_
  bcast_S_S1280 : S_.BroadcastsInDim S1280 (![] : Fin 0 → Fin S1280.rank)
  reducesTo_S1280_S_d0 : S1280.ReducesTo [0] S_
  bcast_S_S1280x1280 : S_.BroadcastsInDim S1280x1280 (![] : Fin 0 → Fin S1280x1280.rank)
  reducesTo_S1280x1280_S_d0_1 : S1280x1280.ReducesTo [0, 1] S_

variable [Facts]

def fn_part1 {F : FTy → Type} [FloatOps F] (main_arg4 : FVec F S1280 .f32) (main_arg5 : FVec F S1280x1280 .f32) (main_arg6 : FVec F S1280 .f32) (main_v13 : IVec S_ 1) (main_v16 : IVec S1280x1280 1) : IVec S_ 1 :=
  let main_c_5 : IVec S_ 1 := constantI S_ 1 1#1
  let main_v17 : IVec S_ 1 := (fun x v => Host.reduce IntOp.andi x v reducesTo_S1280x1280_S_d0_1 h_S_) main_v16 main_c_5
  let main_v18 : IVec S_ 1 := andi main_v13 main_v17
  let main_v19 : FVec F S1280 .f32 := Host.absf main_arg4
  let main_cst_6 : FVec F S_ .f32 := constant S_ .f32 0x7F800000#32
  let main_v20 : FVec F S1280 .f32 := broadcastInDim S1280 ![] bcast_S_S1280 main_cst_6
  let main_v21 : IVec S1280 1 := cmpf .olt main_v19 main_v20
  let main_c_7 : IVec S_ 1 := constantI S_ 1 1#1
  let main_v22 : IVec S_ 1 := (fun x v => Host.reduce IntOp.andi x v reducesTo_S1280_S_d0 h_S_) main_v21 main_c_7
  let main_v23 : IVec S_ 1 := andi main_v18 main_v22
  let main_v24 : FVec F S1280x1280 .f32 := Host.absf main_arg5
  let main_cst_8 : FVec F S_ .f32 := constant S_ .f32 0x7F800000#32
  let main_v25 : FVec F S1280x1280 .f32 := broadcastInDim S1280x1280 ![] bcast_S_S1280x1280 main_cst_8
  let main_v26 : IVec S1280x1280 1 := cmpf .olt main_v24 main_v25
  let main_c_9 : IVec S_ 1 := constantI S_ 1 1#1
  let main_v27 : IVec S_ 1 := (fun x v => Host.reduce IntOp.andi x v reducesTo_S1280x1280_S_d0_1 h_S_) main_v26 main_c_9
  let main_v28 : IVec S_ 1 := andi main_v23 main_v27
  let main_v29 : FVec F S1280 .f32 := Host.absf main_arg6
  let main_cst_10 : FVec F S_ .f32 := constant S_ .f32 0x7F800000#32
  let main_v30 : FVec F S1280 .f32 := broadcastInDim S1280 ![] bcast_S_S1280 main_cst_10
  let main_v31 : IVec S1280 1 := cmpf .olt main_v29 main_v30
  let main_c_11 : IVec S_ 1 := constantI S_ 1 1#1
  let main_v32 : IVec S_ 1 := (fun x v => Host.reduce IntOp.andi x v reducesTo_S1280_S_d0 h_S_) main_v31 main_c_11
  let main_v33 : IVec S_ 1 := andi main_v28 main_v32
  main_v33

def fn {F : FTy → Type} [FloatOps F] (main_arg0 : FVec F S32x32x1280 .f32) (main_arg1 : FVec F S2560x1280 .f32) (main_arg2 : FVec F S1280 .f32) (main_arg3 : FVec F S1280x1280 .f32) (main_arg4 : FVec F S1280 .f32) (main_arg5 : FVec F S1280x1280 .f32) (main_arg6 : FVec F S1280 .f32) : IVec S_ 1 :=
  let main_v0 : FVec F S32x32x1280 .f32 := Host.absf main_arg0
  let main_cst : FVec F S_ .f32 := constant S_ .f32 0x7F800000#32
  let main_v1 : FVec F S32x32x1280 .f32 := broadcastInDim S32x32x1280 ![] bcast_S_S32x32x1280 main_cst
  let main_v2 : IVec S32x32x1280 1 := cmpf .olt main_v0 main_v1
  let main_c : IVec S_ 1 := constantI S_ 1 1#1
  let main_v3 : IVec S_ 1 := (fun x v => Host.reduce IntOp.andi x v reducesTo_S32x32x1280_S_d0_1_2 h_S_) main_v2 main_c
  let main_v4 : FVec F S2560x1280 .f32 := Host.absf main_arg1
  let main_cst_0 : FVec F S_ .f32 := constant S_ .f32 0x7F800000#32
  let main_v5 : FVec F S2560x1280 .f32 := broadcastInDim S2560x1280 ![] bcast_S_S2560x1280 main_cst_0
  let main_v6 : IVec S2560x1280 1 := cmpf .olt main_v4 main_v5
  let main_c_1 : IVec S_ 1 := constantI S_ 1 1#1
  let main_v7 : IVec S_ 1 := (fun x v => Host.reduce IntOp.andi x v reducesTo_S2560x1280_S_d0_1 h_S_) main_v6 main_c_1
  let main_v8 : IVec S_ 1 := andi main_v3 main_v7
  let main_v9 : FVec F S1280 .f32 := Host.absf main_arg2
  let main_cst_2 : FVec F S_ .f32 := constant S_ .f32 0x7F800000#32
  let main_v10 : FVec F S1280 .f32 := broadcastInDim S1280 ![] bcast_S_S1280 main_cst_2
  let main_v11 : IVec S1280 1 := cmpf .olt main_v9 main_v10
  let main_c_3 : IVec S_ 1 := constantI S_ 1 1#1
  let main_v12 : IVec S_ 1 := (fun x v => Host.reduce IntOp.andi x v reducesTo_S1280_S_d0 h_S_) main_v11 main_c_3
  let main_v13 : IVec S_ 1 := andi main_v8 main_v12
  let main_v14 : FVec F S1280x1280 .f32 := Host.absf main_arg3
  let main_cst_4 : FVec F S_ .f32 := constant S_ .f32 0x7F800000#32
  let main_v15 : FVec F S1280x1280 .f32 := broadcastInDim S1280x1280 ![] bcast_S_S1280x1280 main_cst_4
  let main_v16 : IVec S1280x1280 1 := cmpf .olt main_v14 main_v15
  fn_part1 (F := F) main_arg4 main_arg5 main_arg6 main_v13 main_v16
-- ==== Kernel.lean ====
abbrev S32x32x1280 : Shape := ⟨3, ![32, 32, 1280]⟩
abbrev S2560x1280 : Shape := ⟨2, ![2560, 1280]⟩
abbrev S1280 : Shape := ⟨1, ![1280]⟩
abbrev S1280x1280 : Shape := ⟨2, ![1280, 1280]⟩
abbrev S32x1x1280 : Shape := ⟨3, ![32, 1, 1280]⟩
abbrev S1x32x1280 : Shape := ⟨3, ![1, 32, 1280]⟩
abbrev S1x1x1280 : Shape := ⟨3, ![1, 1, 1280]⟩
abbrev S32x1280 : Shape := ⟨2, ![32, 1280]⟩
abbrev S256x1280 : Shape := ⟨2, ![256, 1280]⟩
abbrev S1x1280 : Shape := ⟨2, ![1, 1280]⟩
abbrev S8x1280 : Shape := ⟨2, ![8, 1280]⟩
abbrev S8x1x1280 : Shape := ⟨3, ![8, 1, 1280]⟩
abbrev S8x32x1280 : Shape := ⟨3, ![8, 32, 1280]⟩

abbrev nBuf : Space → Nat
  | .hbm => 12
  | .vmem => 13
  | .smem => 0
  | _ => 0

abbrev bufTy : (tb : Table) → Fin (tcTables nBuf tb) → BufTy
  | .hbm, ⟨0, _⟩ => ⟨S32x32x1280, .f32⟩
  | .hbm, ⟨1, _⟩ => ⟨S2560x1280, .f32⟩
  | .hbm, ⟨2, _⟩ => ⟨S1280, .f32⟩
  | .hbm, ⟨3, _⟩ => ⟨S1280x1280, .f32⟩
  | .hbm, ⟨4, _⟩ => ⟨S1280, .f32⟩
  | .hbm, ⟨5, _⟩ => ⟨S1280x1280, .f32⟩
  | .hbm, ⟨6, _⟩ => ⟨S1280, .f32⟩
  | .hbm, ⟨7, _⟩ => ⟨S2560x1280, .bf16⟩
  | .hbm, ⟨8, _⟩ => ⟨S1280x1280, .bf16⟩
  | .hbm, ⟨9, _⟩ => ⟨S1280x1280, .bf16⟩
  | .hbm, ⟨10, _⟩ => ⟨S32x1x1280, .f32⟩
  | .hbm, ⟨11, _⟩ => ⟨S32x1280, .f32⟩
  | .local _ .vmem, ⟨0, _⟩ => ⟨S1x32x1280, .f32⟩
  | .local _ .vmem, ⟨1, _⟩ => ⟨S1x32x1280, .f32⟩
  | .local _ .vmem, ⟨2, _⟩ => ⟨S2560x1280, .bf16⟩
  | .local _ .vmem, ⟨3, _⟩ => ⟨S1280, .f32⟩
  | .local _ .vmem, ⟨4, _⟩ => ⟨S1280x1280, .bf16⟩
  | .local _ .vmem, ⟨5, _⟩ => ⟨S1280, .f32⟩
  | .local _ .vmem, ⟨6, _⟩ => ⟨S1280x1280, .bf16⟩
  | .local _ .vmem, ⟨7, _⟩ => ⟨S1280, .f32⟩
  | .local _ .vmem, ⟨8, _⟩ => ⟨S1x1x1280, .f32⟩
  | .local _ .vmem, ⟨9, _⟩ => ⟨S1x1x1280, .f32⟩
  | .local _ .vmem, ⟨10, _⟩ => ⟨S32x1280, .f32⟩
  | .local _ .vmem, ⟨11, _⟩ => ⟨S32x1280, .f32⟩
  | .local _ .vmem, ⟨12, _⟩ => ⟨S256x1280, .bf16⟩
  | _, _ => ⟨S32x32x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![32, 4], ![false, false]⟩

def k0_mult1 (i : grid0.Coords) : BitVec 32 :=
  let arg1 : BitVec 32 := BitVec.ofNat 32 (i 1).val
  let c8_i32 : BitVec 32 := 8#32
  let v6 : BitVec 32 := Scalar.muli arg1 c8_i32
  v6
def k0_off1 (i : grid0.Coords) : Fin 2 → Nat :=
  let arg1 : BitVec 32 := BitVec.ofNat 32 (i 1).val
  let c8_i32 : BitVec 32 := 8#32
  let v6 : BitVec 32 := Scalar.muli arg1 c8_i32
  let v7 : BitVec 32 := v6
  let v8 : Index := Scalar.indexCast v7
  let c0_3 : Index := 0#32
  ![v8.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2560x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1280x1280 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1280x1280 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1280 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x1280 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  bitsLt_bf16_f32 : FTy.bits .bf16 < FTy.bits .f32
  inb_S1x32x1280_S1x32x1280_0_0_0 : ∀ a, (![0, 0, 0] : Fin 3 → Nat) a + S1x32x1280.size a ≤ S1x32x1280.size a
  h_S1x32x1280 : 0 < S1x32x1280.numel
  shapeCasts_S1x32x1280_S32x1280 : S1x32x1280.ShapeCasts S32x1280
  inb_S2560x1280_S1280x1280_0_0 : ∀ a, (![0, 0] : Fin 2 → Nat) a + S1280x1280.size a ≤ S2560x1280.size a
  h_S1280x1280 : 0 < S1280x1280.numel
  shapeCasts_S1280x1280_S1280x1280 : S1280x1280.ShapeCasts S1280x1280
  inb_S2560x1280_S1280x1280_1280_0 : ∀ a, (![1280, 0] : Fin 2 → Nat) a + S1280x1280.size a ≤ S2560x1280.size a
  inb_S32x1280_S32x1280_0_0 : ∀ a, (![0, 0] : Fin 2 → Nat) a + S32x1280.size a ≤ S32x1280.size a
  h_S32x1280 : 0 < S32x1280.numel
  shapeCasts_S32x1280_S32x1280 : S32x1280.ShapeCasts S32x1280
  inb_S1x1x1280_S1x1x1280_0_0_0 : ∀ a, (![0, 0, 0] : Fin 3 → Nat) a + S1x1x1280.size a ≤ S1x1x1280.size a
  h_S1x1x1280 : 0 < S1x1x1280.numel
  shapeCasts_S1x1x1280_S1x1280 : S1x1x1280.ShapeCasts S1x1280
  shapeCasts_S1x1280_S1x1x1280 : S1x1280.ShapeCasts S1x1x1280
  h_S8x1280 : 0 < S8x1280.numel
  shapeCasts_S32x1280_S1x32x1280 : S32x1280.ShapeCasts S1x32x1280
  shapeCasts_S8x1280_S8x1x1280 : S8x1280.ShapeCasts S8x1x1280
  broadcasts_S1x32x1280_S8x32x1280 : S1x32x1280.Broadcasts S8x32x1280
  broadcasts_S8x1x1280_S8x32x1280 : S8x1x1280.Broadcasts S8x32x1280
  inb_S1280_S1280_0 : ∀ a, (![0] : Fin 1 → Nat) a + S1280.size a ≤ S1280.size a
  h_S1280 : 0 < S1280.numel
  shapeCasts_S1280_S1x1x1280 : S1280.ShapeCasts S1x1x1280
  broadcasts_S1x1x1280_S8x32x1280 : S1x1x1280.Broadcasts S8x32x1280
  shapeCasts_S8x32x1280_S256x1280 : S8x32x1280.ShapeCasts S256x1280
  inb_S256x1280_S256x1280_0_0 : ∀ a, (![0, 0] : Fin 2 → Nat) a + S256x1280.size a ≤ S256x1280.size a
  h_S256x1280 : 0 < S256x1280.numel
  shapeCasts_S256x1280_S256x1280 : S256x1280.ShapeCasts S256x1280
  packedbf16_S256x1280_S256x1280_0_0 : (Rect.unit (s := S256x1280) ![0, 0] S256x1280.size inb_S256x1280_S256x1280_0_0).PackedRows (EltTy.packing .bf16)
  inb_S1280x1280_S1280x1280_0_0 : ∀ a, (![0, 0] : Fin 2 → Nat) a + S1280x1280.size a ≤ S1280x1280.size a
  shapeCasts_S1280_S1x1280 : S1280.ShapeCasts S1x1280
  broadcasts_S1x1280_S256x1280 : S1x1280.Broadcasts S256x1280
  reduces_S256x1280_S1280 : S256x1280.Reduces [0] S1280
  shapeCasts_S32x1x1280_S32x1280 : S32x1x1280.ShapeCasts S32x1280
  dot_S32x1280_S1280x1280_S32x1280_1_0_0_1_n_n_wf : DotDims.WF S32x1280 S1280x1280 S32x1280 [1] [0] [0] [1] [] []
  dot_S256x1280_S1280x1280_S256x1280_1_0_0_1_n_n_wf : DotDims.WF S256x1280 S1280x1280 S256x1280 [1] [0] [0] [1] [] []
  hrank0 : 0 < grid0.rank
  k0_mult1_dvd : ∀ i : grid0.Coords, 8 ∣ (k0_mult1 i).toNat
  k0_off1_inb : ∀ i : grid0.Coords, ∀ a, (k0_off1 i) a + S8x1280.size a ≤ S32x1280.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x1280.size a ≤ S32x32x1280.size a
  hwx0_0 : ∀ i : grid0.Coords, EltTy.bits .f32 = 32 ∨ (Rect.block (s := S32x32x1280) S1x32x1280.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2560x1280.size a ≤ S2560x1280.size a
  hwx0_1 : ∀ i : grid0.Coords, EltTy.bits .bf16 = 32 ∨ (Rect.block (s := S2560x1280) S2560x1280.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1280.size a ≤ S1280.size a
  hwx0_2 : ∀ i : grid0.Coords, EltTy.bits .f32 = 32 ∨ (Rect.block (s := S1280) S1280.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1280x1280.size a ≤ S1280x1280.size a
  hwx0_3 : ∀ i : grid0.Coords, EltTy.bits .bf16 = 32 ∨ (Rect.block (s := S1280x1280) S1280x1280.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1280.size a ≤ S1280.size a
  hwx0_4 : ∀ i : grid0.Coords, EltTy.bits .f32 = 32 ∨ (Rect.block (s := S1280) S1280.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1280x1280.size a ≤ S1280x1280.size a
  hwx0_5 : ∀ i : grid0.Coords, EltTy.bits .bf16 = 32 ∨ (Rect.block (s := S1280x1280) S1280x1280.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1280.size a ≤ S1280.size a
  hwx0_6 : ∀ i : grid0.Coords, EltTy.bits .f32 = 32 ∨ (Rect.block (s := S1280) S1280.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x1280.size a ≤ S32x1x1280.size a
  hwx0_7 : ∀ i : grid0.Coords, EltTy.bits .f32 = 32 ∨ (Rect.block (s := S32x1x1280) S1x1x1280.size (cc0_transform_7 i) (hinb0_7 i)).WholeWords (EltTy.packing .f32)

variable [Facts₀]

def dot_S32x1280_S1280x1280_S32x1280_1_0_0_1_n_n : DotDims S32x1280 S1280x1280 S32x1280 where
  lhsContracting := [1]
  rhsContracting := [0]
  lhsNonContracting := [0]
  rhsNonContracting := [1]
  lhsBatch := []
  rhsBatch := []
  wf := dot_S32x1280_S1280x1280_S32x1280_1_0_0_1_n_n_wf
def dot_S256x1280_S1280x1280_S256x1280_1_0_0_1_n_n : DotDims S256x1280 S1280x1280 S256x1280 where
  lhsContracting := [1]
  rhsContracting := [0]
  lhsNonContracting := [0]
  rhsNonContracting := [1]
  lhsBatch := []
  rhsBatch := []
  wf := dot_S256x1280_S1280x1280_S256x1280_1_0_0_1_n_n_wf

abbrev win0_0 : Pipeline.Window sig grid0 :=
  Pipeline.Window.ofSpec (Memref.whole main_arg0) S1x32x1280.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2560x1280.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1280.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1280x1280.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1280.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1280x1280.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1280.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x1x1280.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S32x32x1280 : Shape := ⟨3, ![32, 32, 1280]⟩
abbrev S2560x1280 : Shape := ⟨2, ![2560, 1280]⟩
abbrev S1280 : Shape := ⟨1, ![1280]⟩
abbrev S1280x1280 : Shape := ⟨2, ![1280, 1280]⟩
abbrev S32x1x32x1280 : Shape := ⟨4, ![32, 1, 32, 1280]⟩
abbrev S32x32x1x1280 : Shape := ⟨4, ![32, 32, 1, 1280]⟩
abbrev S32x32x32x1280 : Shape := ⟨4, ![32, 32, 32, 1280]⟩
abbrev S1x1x1x1280 : Shape := ⟨4, ![1, 1, 1, 1280]⟩
abbrev S_ : Shape := ⟨0, ![]⟩
abbrev S32x1280 : Shape := ⟨2, ![32, 1280]⟩

abbrev nBuf : Space → Nat
  | .hbm => 38
  | .vmem => 0
  | .smem => 0
  | _ => 0

abbrev bufTy : (tb : Table) → Fin (tcTables nBuf tb) → BufTy
  | .hbm, ⟨0, _⟩ => ⟨S32x32x1280, .f32⟩
  | .hbm, ⟨1, _⟩ => ⟨S2560x1280, .f32⟩
  | .hbm, ⟨2, _⟩ => ⟨S1280, .f32⟩
  | .hbm, ⟨3, _⟩ => ⟨S1280x1280, .f32⟩
  | .hbm, ⟨4, _⟩ => ⟨S1280, .f32⟩
  | .hbm, ⟨5, _⟩ => ⟨S1280x1280, .f32⟩
  | .hbm, ⟨6, _⟩ => ⟨S1280, .f32⟩
  | .hbm, ⟨7, _⟩ => ⟨S1280x1280, .f32⟩
  | .hbm, ⟨8, _⟩ => ⟨S32x32x1280, .f32⟩
  | .hbm, ⟨9, _⟩ => ⟨S1280x1280, .f32⟩
  | .hbm, ⟨10, _⟩ => ⟨S32x32x1280, .f32⟩
  | .hbm, ⟨11, _⟩ => ⟨S32x1x32x1280, .f32⟩
  | .hbm, ⟨12, _⟩ => ⟨S32x32x1x1280, .f32⟩
  | .hbm, ⟨13, _⟩ => ⟨S32x32x32x1280, .f32⟩
  | .hbm, ⟨14, _⟩ => ⟨S32x32x32x1280, .f32⟩
  | .hbm, ⟨15, _⟩ => ⟨S32x32x32x1280, .f32⟩
  | .hbm, ⟨16, _⟩ => ⟨S1x1x1x1280, .f32⟩
  | .hbm, ⟨17, _⟩ => ⟨S32x32x32x1280, .f32⟩
  | .hbm, ⟨18, _⟩ => ⟨S32x32x32x1280, .f32⟩
  | .hbm, ⟨19, _⟩ => ⟨S_, .f32⟩
  | .hbm, ⟨20, _⟩ => ⟨S32x32x32x1280, .f32⟩
  | .hbm, ⟨21, _⟩ => ⟨S32x32x32x1280, .f32⟩
  | .hbm, ⟨22, _⟩ => ⟨S32x32x32x1280, .f32⟩
  | .hbm, ⟨23, _⟩ => ⟨S1x1x1x1280, .f32⟩
  | .hbm, ⟨24, _⟩ => ⟨S32x32x32x1280, .f32⟩
  | .hbm, ⟨25, _⟩ => ⟨S32x32x32x1280, .f32⟩
  | .hbm, ⟨26, _⟩ => ⟨S_, .f32⟩
  | .hbm, ⟨27, _⟩ => ⟨S32x32x32x1280, .f32⟩
  | .hbm, ⟨28, _⟩ => ⟨S32x32x32x1280, .f32⟩
  | .hbm, ⟨29, _⟩ => ⟨S32x32x32x1280, .f32⟩
  | .hbm, ⟨30, _⟩ => ⟨S1x1x1x1280, .f32⟩
  | .hbm, ⟨31, _⟩ => ⟨S32x32x32x1280, .f32⟩
  | .hbm, ⟨32, _⟩ => ⟨S32x32x32x1280, .f32⟩
  | .hbm, ⟨33, _⟩ => ⟨S_, .f32⟩
  | .hbm, ⟨34, _⟩ => ⟨S32x32x32x1280, .f32⟩
  | .hbm, ⟨35, _⟩ => ⟨S32x32x32x1280, .f32⟩
  | .hbm, ⟨36, _⟩ => ⟨S_, .f32⟩
  | .hbm, ⟨37, _⟩ => ⟨S32x1280, .f32⟩
  | _, _ => ⟨S32x32x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_cst : Ref sig .tc := ⟨.hbm, 19, rfl⟩
abbrev main_call0_v0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call1_cst : Ref sig .tc := ⟨.hbm, 26, rfl⟩
abbrev main_call1_v0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call2_cst : Ref sig .tc := ⟨.hbm, 33, rfl⟩
abbrev main_call2_v0 : Ref sig .tc := ⟨.hbm, 34, rfl⟩
abbrev main_v22 : Ref sig .tc := ⟨.hbm, 35, rfl⟩
abbrev main_cst : Ref sig .tc := ⟨.hbm, 36, rfl⟩
abbrev main_v23 : Ref sig .tc := ⟨.hbm, 37, rfl⟩

abbrev nD : Nat := 1
abbrev τ : Topo := Topo.v7x

variable {F : FTy → Type} [FloatOps F]

class Facts₀ : Prop where
  slices_S2560x1280_S1280x1280_0_0 : S2560x1280.Slices ![0, 0] S1280x1280
  slices_S2560x1280_S1280x1280_1280_0 : S2560x1280.Slices ![1280, 0] S1280x1280
  bcast_S32x32x1280_S32x1x32x1280_0_2_3 : S32x32x1280.BroadcastsInDim S32x1x32x1280 (![0, 2, 3] : Fin 3 → Fin S32x1x32x1280.rank)
  bcast_S32x32x1280_S32x32x1x1280_0_1_3 : S32x32x1280.BroadcastsInDim S32x32x1x1280 (![0, 1, 3] : Fin 3 → Fin S32x32x1x1280.rank)
  bcast_S32x1x32x1280_S32x32x32x1280_0_1_2_3 : S32x1x32x1280.BroadcastsInDim S32x32x32x1280 (![0, 1, 2, 3] : Fin 4 → Fin S32x32x32x1280.rank)
  bcast_S32x32x1x1280_S32x32x32x1280_0_1_2_3 : S32x32x1x1280.BroadcastsInDim S32x32x32x1280 (![0, 1, 2, 3] : Fin 4 → Fin S32x32x32x1280.rank)
  bcast_S1280_S1x1x1x1280_3 : S1280.BroadcastsInDim S1x1x1x1280 (![3] : Fin 1 → Fin S1x1x1x1280.rank)
  bcast_S1x1x1x1280_S32x32x32x1280_0_1_2_3 : S1x1x1x1280.BroadcastsInDim S32x32x32x1280 (![0, 1, 2, 3] : Fin 4 → Fin S32x32x32x1280.rank)
  bcast_S_S32x32x32x1280 : S_.BroadcastsInDim S32x32x32x1280 (![] : Fin 0 → Fin S32x32x32x1280.rank)
  reducesTo_S32x32x32x1280_S32x1280_d1_2 : S32x32x32x1280.ReducesTo [1, 2] S32x1280
  h_S_ : 0 < S_.numel
  dot_S32x32x1280_S1280x1280_S32x32x1280_2_0_01_1_n_n_wf : DotDims.WF S32x32x1280 S1280x1280 S32x32x1280 [2] [0] [0, 1] [1] [] []
  dot_S32x32x32x1280_S1280x1280_S32x32x32x1280_3_0_012_1_n_n_wf : DotDims.WF S32x32x32x1280 S1280x1280 S32x32x32x1280 [3] [0] [0, 1, 2] [1] [] []

variable [Facts₀]

def dot_S32x32x1280_S1280x1280_S32x32x1280_2_0_01_1_n_n : DotDims S32x32x1280 S1280x1280 S32x32x1280 where
  lhsContracting := [2]
  rhsContracting := [0]
  lhsNonContracting := [0, 1]
  rhsNonContracting := [1]
  lhsBatch := []
  rhsBatch := []
  wf := dot_S32x32x1280_S1280x1280_S32x32x1280_2_0_01_1_n_n_wf
def dot_S32x32x32x1280_S1280x1280_S32x32x32x1280_3_0_012_1_n_n : DotDims S32x32x32x1280 S1280x1280 S32x32x32x1280 where
  lhsContracting := [3]
  rhsContracting := [0]
  lhsNonContracting := [0, 1, 2]
  rhsNonContracting := [1]
  lhsBatch := []
  rhsBatch := []
  wf := dot_S32x32x32x1280_S1280x1280_S32x32x32x1280_3_0_012_1_n_n_wf

class Facts : Prop extends Facts₀ where

variable [Facts]
-- ==== Proof.LibReadBack.lean ====
/-
  Reading a buffer back after a store that filled all of it, for any shape and element type.

  A kernel body's stores into a buffer are listed last first. When the last store wrote the whole buffer, a load of the
  whole buffer reads exactly the stored value, whatever the earlier stores were; and when the only store over arbitrary
  earlier contents wrote the whole buffer, a load of any rectangle reads the stored value at the rectangle's indices.
-/
import Idealize.ShloMosaic.Lib.Pipeline.Value

noncomputable section

namespace Cert.LibReadBack

open Idealize.ShloMosaic

variable {Val : EltTy → Type} [∀ e, Nonempty (Val e)] {sig : RefSig} {κ : Kind} {sp : Space} {S : Shape} {e : EltTy}

/-- A whole-buffer load after a whole-buffer store, whatever was stored before it, reads the stored value. -/
theorem readCov_cons_whole (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero h inb y⟩),
    View.canon_cons_unit_zero h, View.ld_unit_zero h]

/-- A load of any rectangle after one whole-buffer store over anything reads the stored value at the rectangle. -/
theorem readAt_writes_whole (v : View sig κ sp S e) (f : v.ty.Contents Val) {off : Fin S.rank → Nat} (h : off = fun _ => 0)
    (inb : ∀ a, off a + S.size a ≤ S.size a) (w : S.Idx → Val e) (r : Rect S) :
    v.readAt Val r (v.writes Val f [(⟨Rect.unit off S.size inb, w⟩ : View.Piece Val S e)]) = View.ld w r := by
  rw [View.readAt_eq_ld, View.read_writes_eq_canon _ _ _ (fun y => ⟨_, List.mem_singleton_self _, View.mem_set_unit_zero h inb y⟩),
    View.canon_unit_zero h]

end Cert.LibReadBack

end
-- ==== Proof.Pieces.lean ====
/-
  What one run of the kernel body leaves in the output row's buffer and in the two carried projection buffers, as
  values of what it was handed.

  At the first chunk of an image the body stores the two projections of the image block by the two halves of the
  first weight matrix, zeroes the output row, and then does the chunk's work reading those three stores back; at a
  later chunk it only does the chunk's work, on what the chunk before left. The chunk's work reads the 8 rows of
  the second projection the chunk owns, all 32 rows of the first, and writes the output row once; the slab buffer it
  fills and reads back twice in between is scratch whose stores cover it, so each read is the store before it.
-/
import proofs.«153987_j48962627174544_2_alg».proof.Proof.Gen.KernelIdeal.Frame
import proofs.«153987_j48962627174544_2_alg».proof.Proof.LibReadBack
import Idealize.ShloMosaic.Lib.Pipeline.Value
import Idealize.ShloMosaic.Lib.Tactic

noncomputable section

open Idealize.ShloMosaic Idealize.ShloMosaic.TcCoe Idealize.SL.Sem

namespace Cert.KernelValue

open Cert.KernelIdeal Cert.KernelIdeal.Gen Cert.LibReadBack

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-! ## The pieces of the body's work -/

/-- The upper and the lower half of the first weight matrix, as the body loads them. -/
def wLo (x1 : Vec F S2560x1280 .bf16) : Vec F S1280x1280 .bf16 :=
  View.ld x1 (Rect.unit (s := S2560x1280) ![0, 0] S1280x1280.size inb_S2560x1280_S1280x1280_0_0)
def wHi (x1 : Vec F S2560x1280 .bf16) : Vec F S1280x1280 .bf16 :=
  View.ld x1 (Rect.unit (s := S2560x1280) ![1280, 0] S1280x1280.size inb_S2560x1280_S1280x1280_1280_0)

/-- The 8 rows of the second projection that the chunk at grid point i owns. -/
def ajRows (i : grid0.Coords) (xs1 : Vec F S32x1280 .f32) : Vec F S8x1280 .f32 :=
  View.ld xs1 (Rect.unit (s := S32x1280) (k0_off1 i) S8x1280.size (k0_off1_inb i))

/-- One chunk's work: from the two projections, the biases and weights, and what the output row held, what the output
    row holds afterwards. -/
def step (i : grid0.Coords) (xs1 xs0 : Vec F S32x1280 .f32) (x2 : Vec F S1280 .f32) (x3 : Vec F S1280x1280 .bf16)
    (x4 : Vec F S1280 .f32) (x5 : Vec F S1280x1280 .bf16) (x6 : Vec F S1280 .f32) (acc : Vec F S1x1x1280 .f32) :
    Vec F S1x1x1280 .f32 :=
  k0_pay2 (k0_pay1 (k0_pay8 (k0_pay7 (ajRows i xs1) xs0 x2) x3 x4) k0_pay9) x5 x6 acc

/-! ## The first chunk of an image -/

/-- It leaves the first projection in its buffer, -/
theorem firstChunk_ai (c : Dev nD) (i : grid0.Coords) (arg2 : Memref sig .tc .vmem S1x32x1280 .f32) (harg2 : arg2.IsWhole) (arg3 : Memref sig .tc .vmem S2560x1280 .bf16) (harg3 : arg3.IsWhole) (arg4 : Memref sig .tc .vmem S1280 .f32) (harg4 : arg4.IsWhole) (arg5 : Memref sig .tc .vmem S1280x1280 .bf16) (harg5 : arg5.IsWhole) (arg6 : Memref sig .tc .vmem S1280 .f32) (harg6 : arg6.IsWhole) (arg7 : Memref sig .tc .vmem S1280x1280 .bf16) (harg7 : arg7.IsWhole) (arg8 : Memref sig .tc .vmem S1280 .f32) (harg8 : arg8.IsWhole) (arg9 : Memref sig .tc .vmem S1x1x1280 .f32) (harg9 : arg9.IsWhole) (arg10 : Memref sig .tc .vmem S32x1280 .f32) (harg10 : arg10.IsWhole) (arg11 : Memref sig .tc .vmem S32x1280 .f32) (harg11 : arg11.IsWhole) (arg12 : Memref sig .tc .vmem S256x1280 .bf16) (harg12 : arg12.IsWhole) (hc0 : cond0_0 i)
    (x0 : Vec F S1x32x1280 .f32) (x1 : Vec F S2560x1280 .bf16) (x2 : Vec F S1280 .f32) (x3 : Vec F S1280x1280 .bf16) (x4 : Vec F S1280 .f32) (x5 : Vec F S1280x1280 .bf16) (x6 : Vec F S1280 .f32) :
    sout0_A_0 c i arg2 harg2 arg3 harg3 arg4 harg4 arg5 harg5 arg6 harg6 arg7 harg7 arg8 harg8 arg9 harg9 arg10 harg10 arg11 harg11 arg12 harg12 hc0 x0 x1 x2 x3 x4 x5 x6 = k0_pay4 x0 (wLo x1) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 x0 x1 x2 x3 x4 x5 x6)]
  unfold kernelRun0_A
  dsimp only
  sl_unfold_words
  rw [View.canon_unit_zero hz2]
  simp only [View.readAt_eq_ld, harg2.read_unread, harg3.read_unread, View.ld_unit_zero (S := S1x32x1280) hz3]
  rfl

/-- the second in its, -/
theorem firstChunk_aj (c : Dev nD) (i : grid0.Coords) (arg2 : Memref sig .tc .vmem S1x32x1280 .f32) (harg2 : arg2.IsWhole) (arg3 : Memref sig .tc .vmem S2560x1280 .bf16) (harg3 : arg3.IsWhole) (arg4 : Memref sig .tc .vmem S1280 .f32) (harg4 : arg4.IsWhole) (arg5 : Memref sig .tc .vmem S1280x1280 .bf16) (harg5 : arg5.IsWhole) (arg6 : Memref sig .tc .vmem S1280 .f32) (harg6 : arg6.IsWhole) (arg7 : Memref sig .tc .vmem S1280x1280 .bf16) (harg7 : arg7.IsWhole) (arg8 : Memref sig .tc .vmem S1280 .f32) (harg8 : arg8.IsWhole) (arg9 : Memref sig .tc .vmem S1x1x1280 .f32) (harg9 : arg9.IsWhole) (arg10 : Memref sig .tc .vmem S32x1280 .f32) (harg10 : arg10.IsWhole) (arg11 : Memref sig .tc .vmem S32x1280 .f32) (harg11 : arg11.IsWhole) (arg12 : Memref sig .tc .vmem S256x1280 .bf16) (harg12 : arg12.IsWhole) (hc0 : cond0_0 i)
    (x0 : Vec F S1x32x1280 .f32) (x1 : Vec F S2560x1280 .bf16) (x2 : Vec F S1280 .f32) (x3 : Vec F S1280x1280 .bf16) (x4 : Vec F S1280 .f32) (x5 : Vec F S1280x1280 .bf16) (x6 : Vec F S1280 .f32) :
    sout0_A_1 c i arg2 harg2 arg3 harg3 arg4 harg4 arg5 harg5 arg6 harg6 arg7 harg7 arg8 harg8 arg9 harg9 arg10 harg10 arg11 harg11 arg12 harg12 hc0 x0 x1 x2 x3 x4 x5 x6 = k0_pay5 x0 (wHi x1) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 hc0 x0 x1 x2 x3 x4 x5 x6)]
  unfold kernelRun0_A
  dsimp only
  sl_unfold_words
  rw [View.canon_unit_zero hz2]
  simp only [View.readAt_eq_ld, harg2.read_unread, harg3.read_unread, View.ld_unit_zero (S := S1x32x1280) hz3]
  rfl

/-- and in the output row the chunk's work on those two, from the zero row. -/
theorem firstChunk_out (c : Dev nD) (i : grid0.Coords) (arg2 : Memref sig .tc .vmem S1x32x1280 .f32) (harg2 : arg2.IsWhole) (arg3 : Memref sig .tc .vmem S2560x1280 .bf16) (harg3 : arg3.IsWhole) (arg4 : Memref sig .tc .vmem S1280 .f32) (harg4 : arg4.IsWhole) (arg5 : Memref sig .tc .vmem S1280x1280 .bf16) (harg5 : arg5.IsWhole) (arg6 : Memref sig .tc .vmem S1280 .f32) (harg6 : arg6.IsWhole) (arg7 : Memref sig .tc .vmem S1280x1280 .bf16) (harg7 : arg7.IsWhole) (arg8 : Memref sig .tc .vmem S1280 .f32) (harg8 : arg8.IsWhole) (arg9 : Memref sig .tc .vmem S1x1x1280 .f32) (harg9 : arg9.IsWhole) (arg10 : Memref sig .tc .vmem S32x1280 .f32) (harg10 : arg10.IsWhole) (arg11 : Memref sig .tc .vmem S32x1280 .f32) (harg11 : arg11.IsWhole) (arg12 : Memref sig .tc .vmem S256x1280 .bf16) (harg12 : arg12.IsWhole) (hc0 : cond0_0 i)
    (x0 : Vec F S1x32x1280 .f32) (x1 : Vec F S2560x1280 .bf16) (x2 : Vec F S1280 .f32) (x3 : Vec F S1280x1280 .bf16) (x4 : Vec F S1280 .f32) (x5 : Vec F S1280x1280 .bf16) (x6 : Vec F S1280 .f32) :
    out0_A_7 c i arg2 harg2 arg3 harg3 arg4 harg4 arg5 harg5 arg6 harg6 arg7 harg7 arg8 harg8 arg9 harg9 arg10 harg10 arg11 harg11 arg12 harg12 hc0 x0 x1 x2 x3 x4 x5 x6
      = step i (k0_pay5 x0 (wHi x1)) (k0_pay4 x0 (wLo x1)) x2 x3 x4 x5 x6 (k0_pay6 (F := F)) := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 arg12 harg12 hc0 x0 x1 x2 x3 x4 x5 x6)]
  unfold kernelRun0_A
  dsimp only
  sl_unfold_words
  rw [View.canon_cons_unit_zero (S := S1x1x1280) hz3]
  rw [readCov_cons_whole (S := S256x1280) _ hz2, View.readCov_unit_zero (S := S256x1280) _ hz2,
    View.readCov_unit_zero (S := S1x1x1280) _ hz3, View.readCov_unit_zero (S := S32x1280) _ hz2,
    readAt_writes_whole (S := S32x1280) _ _ hz2]
  simp only [View.readAt_eq_ld, harg2.read_unread, harg3.read_unread, harg4.read_unread, harg5.read_unread,
    harg6.read_unread, harg7.read_unread, harg8.read_unread, View.ld_unit_zero (S := S1x32x1280) hz3,
    View.ld_unit_zero (S := S1280) hz1, View.ld_unit_zero (S := S1280x1280) hz2]
  rfl

/-! ## A later chunk -/

/-- It leaves in the output row the chunk's work on the two projections it found, from what the row held. -/
theorem laterChunk_out (c : Dev nD) (i : grid0.Coords) (arg2 : Memref sig .tc .vmem S1x32x1280 .f32) (harg2 : arg2.IsWhole) (arg3 : Memref sig .tc .vmem S2560x1280 .bf16) (harg3 : arg3.IsWhole) (arg4 : Memref sig .tc .vmem S1280 .f32) (harg4 : arg4.IsWhole) (arg5 : Memref sig .tc .vmem S1280x1280 .bf16) (harg5 : arg5.IsWhole) (arg6 : Memref sig .tc .vmem S1280 .f32) (harg6 : arg6.IsWhole) (arg7 : Memref sig .tc .vmem S1280x1280 .bf16) (harg7 : arg7.IsWhole) (arg8 : Memref sig .tc .vmem S1280 .f32) (harg8 : arg8.IsWhole) (arg9 : Memref sig .tc .vmem S1x1x1280 .f32) (harg9 : arg9.IsWhole) (arg10 : Memref sig .tc .vmem S32x1280 .f32) (harg10 : arg10.IsWhole) (arg11 : Memref sig .tc .vmem S32x1280 .f32) (harg11 : arg11.IsWhole) (arg12 : Memref sig .tc .vmem S256x1280 .bf16) (harg12 : arg12.IsWhole) (hc0 : ¬cond0_0 i)
    (x0 : Vec F S1x32x1280 .f32) (x1 : Vec F S2560x1280 .bf16) (x2 : Vec F S1280 .f32) (x3 : Vec F S1280x1280 .bf16) (x4 : Vec F S1280 .f32) (x5 : Vec F S1280x1280 .bf16) (x6 : Vec F S1280 .f32)
    (xo7 : Vec F S1x1x1280 .f32) (xs0 xs1 : Vec F S32x1280 .f32) :
    out0_B_7 c i arg2 harg2 arg3 harg3 arg4 harg4 arg5 harg5 arg6 harg6 arg7 harg7 arg8 harg8 arg9 harg9 arg10 harg10 arg11 harg11 arg12 harg12 hc0 x0 x1 x2 x3 x4 x5 x6 xo7 xs0 xs1 = step i xs1 xs0 x2 x3 x4 x5 x6 xo7 := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 arg12 harg12 hc0 x0 x1 x2 x3 x4 x5 x6 xo7 xs0 xs1)]
  unfold kernelRun0_B
  dsimp only
  sl_unfold_words
  rw [View.canon_unit_zero (S := S1x1x1280) hz3]
  rw [readCov_cons_whole (S := S256x1280) _ hz2, View.readCov_unit_zero (S := S256x1280) _ hz2]
  simp only [View.readAt_eq_ld, harg4.read_unread, harg5.read_unread, harg6.read_unread, harg7.read_unread,
    harg8.read_unread, harg9.read_unread, harg10.read_unread, harg11.read_unread,
    View.ld_unit_zero (S := S1x1x1280) hz3, View.ld_unit_zero (S := S32x1280) hz2,
    View.ld_unit_zero (S := S1280) hz1, View.ld_unit_zero (S := S1280x1280) hz2]
  rfl

end Cert.KernelValue

end
-- ==== Proof.Points.lean ====
/-
  What the three carried buffers hold after each grid point, and what each window's block is.

  The grid walks the images in order and, inside an image, its four chunks in order: point t is chunk t % 4 of image
  t / 4. At a first chunk the two projection buffers and the output row are what the first chunk's body leaves; at a
  later chunk the projection buffers are untouched and the output row is the chunk's work on what the point before
  left. The image window's block at point t is image t / 4; the six weight and bias windows hold their whole arrays at
  every point; the chunk's 8 rows of the second projection start at row 8·(t % 4); the output window's block is row
  t / 4 of the result.
-/
import proofs.«153987_j48962627174544_2_alg».proof.Proof.Pieces
import Idealize.ShloMosaic.Lib.ValueIdx

noncomputable section

open Idealize.ShloMosaic Idealize.ShloMosaic.TcCoe Idealize.SL.Sem

namespace Cert.KernelValue

open Cert.KernelIdeal Cert.KernelIdeal.Gen Idealize.ShloMosaic.ValueIdx

variable {F : FTy → Type} [FloatOps F]
variable (m : (ℓ : Loc nD τ sig) → Buf (Elt F) ℓ) (c : Dev nD)

/-- Where each window's block sits at grid point t, and where the chunk's rows of the second projection start. -/
theorem idx_facts : ∀ t : Fin cfg0.N,
    win0_0.index t (0 : Fin 3) = t.val / 4 ∧ win0_0.index t (1 : Fin 3) = 0 ∧ win0_0.index t (2 : Fin 3) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 3) = t.val / 4 ∧ win0_7.index t (1 : Fin 3) = 0 ∧ win0_7.index t (2 : Fin 3) = 0
    ∧ k0_off1 (grid0.coords t) (0 : Fin 2) = 8 * (t.val % 4) ∧ k0_off1 (grid0.coords t) (1 : Fin 2) = 0 :=
  (by decide +kernel : ∀ t : Fin grid0.N, _)

/-! ## The windows' blocks -/

/-- The image window's block at point t is image t / 4. -/
theorem blk_image (t : Fin cfg0.N) (b : Fin 32) (hb : b.val = t.val / 4) (q : Fin 32) (k : Fin 1280) :
    (iblk m c 0 t : Vec F S1x32x1280 .f32) (ix3 (0 : Fin 1) q k) = V m c main_arg0 (ix3 b q k) := by
  obtain ⟨e0, e1, e2, -⟩ := idx_facts t
  unfold iblk
  rw [View.read_apply]
  show V m c main_arg0 (((cfg0.win 0).blk t).view.emb (ix3 (0 : Fin 1) q k)) = V m c main_arg0 (ix3 b q k)
  refine congrArg (V m c main_arg0) (funext fun a => Fin.ext ?_)
  match a with
  | ⟨0, _⟩ => show win0_0.index t (0 : Fin 3) * 1 + 1 * 0 = b.val; omega
  | ⟨1, _⟩ => show win0_0.index t (1 : Fin 3) * 32 + 1 * q.val = q.val; omega
  | ⟨2, _⟩ => show win0_0.index t (2 : Fin 3) * 1280 + 1 * k.val = k.val; omega

/-- The first weight matrix's window holds the whole array; -/
theorem blk_w1 (t : Fin cfg0.N) : (iblk m c 1 t : Vec F S2560x1280 .bf16) = V m c main_v0 := by
  obtain ⟨-, -, -, e0, e1, -⟩ := idx_facts t
  funext y
  unfold iblk
  rw [View.read_apply]
  show V m c main_v0 (((cfg0.win 1).blk t).view.emb y) = V m c main_v0 y
  refine congrArg (V m c main_v0) (funext fun a => Fin.ext ?_)
  match a with
  | ⟨0, _⟩ => show win0_1.index t (0 : Fin 2) * 2560 + 1 * (y 0).val = (y 0).val; omega
  | ⟨1, _⟩ => show win0_1.index t (1 : Fin 2) * 1280 + 1 * (y 1).val = (y 1).val; omega

/-- so does the first bias's, -/
theorem blk_b1 (t : Fin cfg0.N) : (iblk m c 2 t : Vec F S1280 .f32) = V m c main_arg2 := by
  obtain ⟨-, -, -, -, -, e0, -⟩ := idx_facts t
  funext y
  unfold iblk
  rw [View.read_apply]
  show V m c main_arg2 (((cfg0.win 2).blk t).view.emb y) = V m c main_arg2 y
  refine congrArg (V m c main_arg2) (funext fun a => Fin.ext ?_)
  match a with
  | ⟨0, _⟩ => show win0_2.index t (0 : Fin 1) * 1280 + 1 * (y 0).val = (y 0).val; omega

/-- the second weight matrix's, -/
theorem blk_w2 (t : Fin cfg0.N) : (iblk m c 3 t : Vec F S1280x1280 .bf16) = V m c main_v1 := by
  obtain ⟨-, -, -, -, -, -, e0, e1, -⟩ := idx_facts t
  funext y
  unfold iblk
  rw [View.read_apply]
  show V m c main_v1 (((cfg0.win 3).blk t).view.emb y) = V m c main_v1 y
  refine congrArg (V m c main_v1) (funext fun a => Fin.ext ?_)
  match a with
  | ⟨0, _⟩ => show win0_3.index t (0 : Fin 2) * 1280 + 1 * (y 0).val = (y 0).val; omega
  | ⟨1, _⟩ => show win0_3.index t (1 : Fin 2) * 1280 + 1 * (y 1).val = (y 1).val; omega

/-- the second bias's, -/
theorem blk_b2 (t : Fin cfg0.N) : (iblk m c 4 t : Vec F S1280 .f32) = V m c main_arg4 := by
  obtain ⟨-, -, -, -, -, -, -, -, e0, -⟩ := idx_facts t
  funext y
  unfold iblk
  rw [View.read_apply]
  show V m c main_arg4 (((cfg0.win 4).blk t).view.emb y) = V m c main_arg4 y
  refine congrArg (V m c main_arg4) (funext fun a => Fin.ext ?_)
  match a with
  | ⟨0, _⟩ => show win0_4.index t (0 : Fin 1) * 1280 + 1 * (y 0).val = (y 0).val; omega

/-- the third weight matrix's, -/
theorem blk_w3 (t : Fin cfg0.N) : (iblk m c 5 t : Vec F S1280x1280 .bf16) = V m c main_v2 := by
  obtain ⟨-, -, -, -, -, -, -, -, -, e0, e1, -⟩ := idx_facts t
  funext y
  unfold iblk
  rw [View.read_apply]
  show V m c main_v2 (((cfg0.win 5).blk t).view.emb y) = V m c main_v2 y
  refine congrArg (V m c main_v2) (funext fun a => Fin.ext ?_)
  match a with
  | ⟨0, _⟩ => show win0_5.index t (0 : Fin 2) * 1280 + 1 * (y 0).val = (y 0).val; omega
  | ⟨1, _⟩ => show win0_5.index t (1 : Fin 2) * 1280 + 1 * (y 1).val = (y 1).val; omega

/-- and the third bias's. -/
theorem blk_b3 (t : Fin cfg0.N) : (iblk m c 6 t : Vec F S1280 .f32) = V m c main_arg6 := by
  obtain ⟨-, -, -, -, -, -, -, -, -, -, -, e0, -⟩ := idx_facts t
  funext y
  unfold iblk
  rw [View.read_apply]
  show V m c main_arg6 (((cfg0.win 6).blk t).view.emb y) = V m c main_arg6 y
  refine congrArg (V m c main_arg6) (funext fun a => Fin.ext ?_)
  match a with
  | ⟨0, _⟩ => show win0_6.index t (0 : Fin 1) * 1280 + 1 * (y 0).val = (y 0).val; omega

/-! ## The carried buffers, point by point -/

/-- After a first chunk. -/
theorem first_vals (t : Fin cfg0.N) (h0 : t.val % 4 = 0) :
    (outsAt0 m c t.val t.isLt).2.1 = k0_pay4 (iblk m c 0 t) (wLo (iblk m c 1 t))
    ∧ (outsAt0 m c t.val t.isLt).2.2 = k0_pay5 (iblk m c 0 t) (wHi (iblk m c 1 t))
    ∧ (outsAt0 m c t.val t.isLt).1
        = step (grid0.coords t) (k0_pay5 (iblk m c 0 t) (wHi (iblk m c 1 t))) (k0_pay4 (iblk m c 0 t) (wLo (iblk m c 1 t)))
            (iblk m c 2 t) (iblk m c 3 t) (iblk m c 4 t) (iblk m c 5 t) (iblk m c 6 t) (k0_pay6 (F := F)) := by
  rw [outsAt0_A m c t h0]
  dsimp only
  exact ⟨firstChunk_ai (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t),
    firstChunk_aj (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t),
    firstChunk_out (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t)⟩

/-- After a later chunk. -/
theorem later_vals (t : Fin cfg0.N) (h0 : ¬t.val % 4 = 0) :
    (outsAt0 m c t.val t.isLt).2.1 = (outsAt0 m c (t.val - 1) (Nat.lt_of_le_of_lt (Nat.sub_le _ _) t.isLt)).2.1
    ∧ (outsAt0 m c t.val t.isLt).2.2 = (outsAt0 m c (t.val - 1) (Nat.lt_of_le_of_lt (Nat.sub_le _ _) t.isLt)).2.2
    ∧ (outsAt0 m c t.val t.isLt).1
        = step (grid0.coords t) (outsAt0 m c (t.val - 1) (Nat.lt_of_le_of_lt (Nat.sub_le _ _) t.isLt)).2.2
            (outsAt0 m c (t.val - 1) (Nat.lt_of_le_of_lt (Nat.sub_le _ _) t.isLt)).2.1
            (iblk m c 2 t) (iblk m c 3 t) (iblk m c 4 t) (iblk m c 5 t) (iblk m c 6 t)
            (outsAt0 m c (t.val - 1) (Nat.lt_of_le_of_lt (Nat.sub_le _ _) t.isLt)).1 := by
  rw [outsAt0_B m c t h0]
  dsimp only
  exact ⟨rfl, rfl, laterChunk_out (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t)
    (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2⟩

end Cert.KernelValue

end
-- ==== Proof.LibMatmulPlain.lean ====
/-
  The product of an [M, K] matrix by a [K, N] matrix, read at an entry, on the extended reals, for any extents and
  element formats: entry (p, n) of the product taken into a zero accumulator is the sum over k of the left matrix's
  (p, k) entry times the right matrix's (k, n) entry; taken into an accumulator acc it is acc's entry plus that sum.
-/
import Idealize.ShloMosaic.PureOps.Ideal.Laws
import Idealize.ShloMosaic.Lib.ValueIdx

noncomputable section

namespace Cert.LibMatmulPlain

open Idealize.ShloMosaic Idealize.ShloMosaic.ValueIdx

/-- The dimension numbers of a plain matrix product: contract the left matrix's columns with the right one's rows. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

/-- The left operand's row coordinate is the output entry's row. -/
theorem lhsIdx_row (j : (⟨2, ![M, N]⟩ : Shape).Idx) (q : (plainDims M K N wf).contr.Idx) :
    ((plainDims M K N wf).lhsIdx j q 0).val = (j 0).val := by
  unfold DotDims.lhsIdx
  rw [dif_neg (show ¬(0 : Fin 2) ∈ (plainDims M K N wf).lhsBatch from List.not_mem_nil),
    dif_pos (show (0 : Fin 2) ∈ (plainDims M K N wf).lhsNonContracting from List.mem_singleton.mpr rfl)]
  rfl

/-- The right operand's column coordinate is the output entry's column. -/
theorem rhsIdx_col (j : (⟨2, ![M, N]⟩ : Shape).Idx) (q : (plainDims M K N wf).contr.Idx) :
    ((plainDims M K N wf).rhsIdx j q 1).val = (j 1).val := by
  unfold DotDims.rhsIdx
  rw [dif_neg (show ¬(1 : Fin 2) ∈ (plainDims M K N wf).rhsBatch from List.not_mem_nil),
    dif_pos (show (1 : Fin 2) ∈ (plainDims M K N wf).rhsNonContracting from List.mem_singleton.mpr rfl)]
  rfl

/-- The left operand's index for output entry (p, n) and contraction index k is (p, k). -/
theorem lhsIdx_eq (p : Fin M) (n : Fin N) (k : Fin K) :
    (plainDims M K N wf).lhsIdx (ix2 p n) ((contrEquiv1 (plainDims M K N wf) K rfl rfl).symm k) = ix2 p k := by
  have hk := contrEquiv1_symm_val (plainDims M K N wf) K rfl rfl k
  funext a
  refine Fin.ext ?_
  match a with
  | ⟨0, _⟩ => exact lhsIdx_row wf _ _
  | ⟨1, _⟩ => exact ((plainDims M K N wf).lhsIdx_val_of_single rfl _ _).trans hk

/-- The right operand's index for output entry (p, n) and contraction index k is (k, n). -/
theorem rhsIdx_eq (p : Fin M) (n : Fin N) (k : Fin K) :
    (plainDims M K N wf).rhsIdx (ix2 p n) ((contrEquiv1 (plainDims M K N wf) K rfl rfl).symm k) = ix2 k n := by
  have hk := contrEquiv1_symm_val (plainDims M K N wf) K rfl rfl k
  funext a
  refine Fin.ext ?_
  match a with
  | ⟨0, _⟩ => exact ((plainDims M K N wf).rhsIdx_val_of_single rfl _ _).trans hk
  | ⟨1, _⟩ => exact rhsIdx_col wf _ _

/-- Entry (p, n) of the product taken into an accumulator: the accumulator's entry plus the K-term sum. -/
theorem matmul_apply {φ₁ φ₂ : FTy} (prec : Option ContractPrecision)
    (lhs : FVec Ideal ⟨2, ![M, K]⟩ φ₁) (rhs : FVec Ideal ⟨2, ![K, N]⟩ φ₂) (acc : FVec Ideal ⟨2, ![M, N]⟩ .f32)
    (p : Fin M) (n : Fin N) :
    FloatOps.matmul (plainDims M K N wf) prec lhs rhs acc (ix2 p n)
      = acc (ix2 p n) + ∑ k : Fin K, lhs (ix2 p k) * rhs (ix2 k n) := by
  rw [Ideal.matmul_apply, ← Equiv.sum_comp (contrEquiv1 (plainDims M K N wf) K rfl rfl).symm]
  refine congrArg (acc (ix2 p n) + ·) (Finset.sum_congr rfl fun k _ => ?_)
  rw [lhsIdx_eq wf p n k, rhsIdx_eq wf p n k]

/-- Entry (p, n) of the product taken into the zero accumulator: the K-term sum alone. -/
theorem matmul_zero_apply {φ₁ φ₂ : FTy} (prec : Option ContractPrecision)
    (lhs : FVec Ideal ⟨2, ![M, K]⟩ φ₁) (rhs : FVec Ideal ⟨2, ![K, N]⟩ φ₂) (p : Fin M) (n : Fin N) :
    FloatOps.matmul (plainDims M K N wf) prec lhs rhs (constant ⟨2, ![M, N]⟩ .f32 0x00000000#32) (ix2 p n)
      = ∑ k : Fin K, lhs (ix2 p k) * rhs (ix2 k n) := by
  rw [matmul_apply wf prec lhs rhs _ p n]
  show Ideal.ofBits .f32 0x00000000#32 + _ = _
  rw [Ideal.ofBits_zero_f32, zero_add]

end Cert.LibMatmulPlain

end
-- ==== Proof.Payloads.lean ====
/-
  The kernel body's arithmetic on the extended reals, entry by entry.

  At the ideal values a change of float format is the identity and a product into a zero accumulator is the plain
  sum of products, so: the two projections the first chunk of an image stores are Σ_k x[q,k]·W[k,h]; the slab of 256
  pair rows a chunk builds holds, at row r, max(ai[r % 32] + aj[r / 32] + b1, 0); a dense layer on the slab adds the
  bias to the row's product with the weights; and the chunk's contribution to the output row is the previous contents
  plus the sum over the 256 rows of the last layer's clamped result.
-/
import proofs.«153987_j48962627174544_2_alg».proof.Proof.Gen.KernelIdeal.Skeleton
import proofs.«153987_j48962627174544_2_alg».proof.Proof.LibMatmulPlain
import Idealize.ShloMosaic.Lib.Pipeline.Value
import Idealize.ShloMosaic.Lib.ValueIdx
import Idealize.ShloMosaic.Lib.ValueLayout
import Idealize.ShloMosaic.PureOps.Ideal.Laws

noncomputable section

namespace Cert.KernelValue

open Cert.KernelIdeal Cert.KernelIdeal.Gen Idealize.ShloMosaic Idealize.ShloMosaic.ValueIdx

/-- The float zero. -/
abbrev z : EReal := Ideal.ofBits .f32 0x00000000#32

/-- Row r of the slab is the pair (r / 32, r % 32) of the chunk's 8 × 32 pairs. -/
abbrev rowP (r : Fin 256) : Fin 8 := ⟨r.val / 32, by have := r.isLt; omega⟩
abbrev rowQ (r : Fin 256) : Fin 32 := ⟨r.val % 32, Nat.mod_lt _ (by decide)⟩

/-! ## The projections -/

/-- The image block's rows as a [32, 1280] matrix in the product's input format. -/
theorem pay3_apply (v0 : FVec Ideal S1x32x1280 .f32) (q : Fin 32) (k : Fin 1280) :
    k0_pay3 (F := Ideal) v0 (ix2 q k) = v0 (ix3 (0 : Fin 1) q k) := by
  unfold k0_pay3
  exact shapeCast_1ab_ab_apply v0 _ q k

/-- Entry (q, h) of a projection: the sum over k of the image row's k-th feature times the weight at (k, h). -/
theorem pay4_apply (v0 : FVec Ideal S1x32x1280 .f32) (v59 : FVec Ideal S1280x1280 .bf16) (q : Fin 32) (h : Fin 1280) :
    k0_pay4 (F := Ideal) v0 v59 (ix2 q h) = ∑ k : Fin 1280, v0 (ix3 (0 : Fin 1) q k) * v59 (ix2 k h) := by
  unfold k0_pay4
  rw [shapeCast_self, shapeCast_self]
  refine (Cert.LibMatmulPlain.matmul_zero_apply dot_S32x1280_S1280x1280_S32x1280_1_0_0_1_n_n_wf none
    (k0_pay3 (F := Ideal) v0) v59 q h).trans ?_
  exact Finset.sum_congr rfl fun k _ => congrArg (· * v59 (ix2 k h)) (pay3_apply v0 q k)

theorem pay5_apply (v0 : FVec Ideal S1x32x1280 .f32) (v62 : FVec Ideal S1280x1280 .bf16) (q : Fin 32) (h : Fin 1280) :
    k0_pay5 (F := Ideal) v0 v62 (ix2 q h) = ∑ k : Fin 1280, v0 (ix3 (0 : Fin 1) q k) * v62 (ix2 k h) := by
  unfold k0_pay5
  rw [shapeCast_self, shapeCast_self]
  refine (Cert.LibMatmulPlain.matmul_zero_apply dot_S32x1280_S1280x1280_S32x1280_1_0_0_1_n_n_wf none
    (k0_pay3 (F := Ideal) v0) v62 q h).trans ?_
  exact Finset.sum_congr rfl fun k _ => congrArg (· * v62 (ix2 k h)) (pay3_apply v0 q k)

/-! ## The zero blocks -/

theorem pay6_apply (y : S1x1x1280.Idx) : k0_pay6 (F := Ideal) y = z := rfl
theorem pay9_apply (y : S256x1280.Idx) : k0_pay9 (F := Ideal) y = z := rfl

/-! ## The slab of pair rows -/

/-- Row r of the first hidden layer's slab: box r % 32's first projection plus the chunk's box r / 32's second
    projection plus the bias, clamped at zero. -/
theorem pay7_apply (v9 : FVec Ideal S8x1280 .f32) (v10 : FVec Ideal S32x1280 .f32) (v16 : FVec Ideal S1280 .f32)
    (r : Fin 256) (h : Fin 1280) :
    k0_pay7 (F := Ideal) v9 v10 v16 (ix2 r h)
      = max (v10 (ix2 (rowQ r) h) + v9 (ix2 (rowP r) h) + v16 (ix1 h)) z := by
  unfold k0_pay7
  rw [shapeCast_self]
  have hr := r.isLt
  have hh := h.isLt
  refine (shapeCast_apply _ shapeCasts_S8x32x1280_S256x1280 (ix2 r h) (ix3 (rowP r) (rowQ r) h) (by
    rw [Shape.rowMajor_val_three, Shape.rowMajor_val_two]
    show (r.val / 32 * 32 + r.val % 32) * 1280 + h.val = r.val * 1280 + h.val
    omega)).trans ?_
  rw [truncf_apply, maximumf_apply, addf_apply, addf_apply, broadcast_apply]
  refine congrArg₂ max (congrArg₂ (· + ·) (congrArg₂ (· + ·) ?_ ?_) ?_) rfl
  · refine (broadcastTo_apply _ broadcasts_S1x32x1280_S8x32x1280 (ix3 (rowP r) (rowQ r) h) (ix3 (0 : Fin 1) (rowQ r) h)
      (fun a => by match a with | ⟨0, _⟩ => rfl | ⟨1, _⟩ => rfl | ⟨2, _⟩ => rfl)).trans ?_
    exact shapeCast_ab_1ab_apply v10 _ 0 (rowQ r) h
  · refine (broadcastTo_apply _ broadcasts_S8x1x1280_S8x32x1280 (ix3 (rowP r) (rowQ r) h) (ix3 (rowP r) (0 : Fin 1) h)
      (fun a => by match a with | ⟨0, _⟩ => rfl | ⟨1, _⟩ => rfl | ⟨2, _⟩ => rfl)).trans ?_
    exact shapeCast_apply v9 shapeCasts_S8x1280_S8x1x1280 (ix3 (rowP r) (0 : Fin 1) h) (ix2 (rowP r) h) (by
      rw [Shape.rowMajor_val_three, Shape.rowMajor_val_two]
      show (rowP r).val * 1280 + h.val = ((rowP r).val * 1 + 0) * 1280 + h.val
      omega)
  · refine (broadcastTo_apply _ broadcasts_S1x1x1280_S8x32x1280 (ix3 (rowP r) (rowQ r) h) (ix3 (0 : Fin 1) (0 : Fin 1) h)
      (fun a => by match a with | ⟨0, _⟩ => rfl | ⟨1, _⟩ => rfl | ⟨2, _⟩ => rfl)).trans ?_
    exact shapeCast_apply v16 shapeCasts_S1280_S1x1x1280 (ix3 (0 : Fin 1) (0 : Fin 1) h) (ix1 h) (by
      rw [Shape.rowMajor_val_three, Shape.rowMajor_val_one]
      show h.val = ((0 : Fin 1).val * 1 + (0 : Fin 1).val) * 1280 + h.val
      simp)

/-! ## A dense layer on the slab -/

/-- The bias as a [1, 1280] row broadcast over the slab's rows. -/
theorem bias_apply (v : FVec Ideal S1280 .f32) (r : Fin 256) (k : Fin 1280) :
    broadcastTo S256x1280 (shapeCast S1x1280 v shapeCasts_S1280_S1x1280) broadcasts_S1x1280_S256x1280 (ix2 r k)
      = v (ix1 k) :=
  (broadcastTo_1b_ab_apply _ broadcasts_S1x1280_S256x1280 r k).trans (shapeCast_a_1a_apply v _ 0 k)

/-- Row r of a layer before its clamp: the row's product with the weights plus the bias. -/
theorem pay8_apply (v27 : FVec Ideal S256x1280 .bf16) (v28 : FVec Ideal S1280x1280 .bf16) (v31 : FVec Ideal S1280 .f32)
    (r : Fin 256) (k : Fin 1280) :
    k0_pay8 (F := Ideal) v27 v28 v31 (ix2 r k) = (∑ h : Fin 1280, v27 (ix2 r h) * v28 (ix2 h k)) + v31 (ix1 k) := by
  unfold k0_pay8
  rw [shapeCast_self, addf_apply]
  exact congrArg₂ (· + ·)
    (Cert.LibMatmulPlain.matmul_zero_apply dot_S256x1280_S1280x1280_S256x1280_1_0_0_1_n_n_wf none v27 v28 r k)
    (bias_apply v31 r k)

/-- The clamp, stored in the product's input format. -/
theorem pay1_apply (v34 v35 : FVec Ideal S256x1280 .f32) (j : S256x1280.Idx) :
    k0_pay1 (F := Ideal) v34 v35 j = max (v34 j) (v35 j) := by
  unfold k0_pay1
  rw [shapeCast_self]
  rfl

/-! ## The chunk's contribution to the output row -/

/-- The sum over the slab's rows, at column k. -/
theorem rowsum_apply (src : FVec Ideal S256x1280 .f32) (hφ : FKind.Formats .f32)
    (hacc : (0x00000000#32 : BitVec 32) = 0x00000000#32) (k : Fin 1280) :
    multiReduction .add [0] S1280 src 0x00000000#32 reduces_S256x1280_S1280 hφ hacc (ix1 k)
      = ∑ r : Fin 256, src (ix2 r k) := by
  refine (Ideal.multiReduction_add_single src 0x00000000#32 reduces_S256x1280_S1280 hφ hacc (ix1 k)).trans ?_
  refine Finset.sum_congr rfl fun r _ => congrArg src ?_
  funext a
  refine Fin.ext ?_
  rw [Shape.Reduces.lift_val]
  match a with
  | ⟨0, _⟩ => rfl
  | ⟨1, _⟩ => rfl

/-- The output row after the chunk: what it held plus the sum over the slab's rows of the last layer, clamped. -/
theorem pay2_apply (v41 : FVec Ideal S256x1280 .bf16) (v42 : FVec Ideal S1280x1280 .bf16) (v45 : FVec Ideal S1280 .f32)
    (v51 : FVec Ideal S1x1x1280 .f32) (k : Fin 1280) :
    k0_pay2 (F := Ideal) v41 v42 v45 v51 (ix3 (0 : Fin 1) (0 : Fin 1) k)
      = v51 (ix3 (0 : Fin 1) (0 : Fin 1) k)
        + ∑ r : Fin 256, max ((∑ h : Fin 1280, v41 (ix2 r h) * v42 (ix2 h k)) + v45 (ix1 k)) z := by
  unfold k0_pay2
  rw [shapeCast_self]
  refine (shapeCast_ab_1ab_apply _ shapeCasts_S1x1280_S1x1x1280 0 0 k).trans ?_
  rw [addf_apply]
  refine congrArg₂ (· + ·) (shapeCast_1ab_ab_apply v51 _ 0 k) ?_
  refine (shapeCast_a_1a_apply _ shapeCasts_S1280_S1x1280 0 k).trans ?_
  refine (rowsum_apply _ _ _ k).trans ?_
  refine Finset.sum_congr rfl fun r _ => ?_
  rw [maximumf_apply, addf_apply, broadcast_apply]
  exact congrArg₂ max (congrArg₂ (· + ·)
    (Cert.LibMatmulPlain.matmul_zero_apply dot_S256x1280_S1280x1280_S256x1280_1_0_0_1_n_n_wf none v41 v42 r k)
    (bias_apply v45 r k)) rfl

end Cert.KernelValue

end
-- ==== Proof.LibSumBlocks.lean ====
/-
  Summing a function over `Fin (a * b)` block by block.

  The numbers below `a * b` are exactly the numbers `k * b + j` with `k < a` and `j < b`, each written in one way
  (`k` is the quotient by `b`, `j` the remainder). So a sum over all of them, in a commutative monoid, is the sum
  over the `a` blocks of `b` consecutive numbers of each block's own sum. Only commutativity and associativity of
  the addition are used: nothing is cancelled or distributed, so the statements hold in any additive commutative
  monoid, the extended reals included.
-/
import Mathlib.Algebra.BigOperators.Fin
import Mathlib.Data.Fintype.BigOperators
import Mathlib.Logic.Equiv.Fin.Basic

open scoped BigOperators

namespace Cert.LibSumBlocks

/-- The `j`-th number of the `k`-th block of `b` consecutive numbers lies below `a * b` when `k < a` and `j < b`. -/
theorem block_index_lt {a b : ℕ} (k : Fin a) (j : Fin b) : k.val * b + j.val < a * b :=
  calc k.val * b + j.val < k.val * b + b := Nat.add_lt_add_left j.isLt _
    _ = (k.val + 1) * b := (Nat.succ_mul _ _).symm
    _ ≤ a * b := Nat.mul_le_mul_right _ k.isLt

/-- A sum over `Fin (a * b)` is the sum, over the `a` blocks of `b` consecutive indices, of the sums over each
    block: `∑ i, f i = ∑ k < a, ∑ j < b, f (k * b + j)`, in any additive commutative monoid. -/
theorem sum_blocks {M : Type*} [AddCommMonoid M] (a b : ℕ) (f : Fin (a * b) → M) :
    ∑ i : Fin (a * b), f i = ∑ k : Fin a, ∑ j : Fin b, f ⟨k.val * b + j.val, block_index_lt k j⟩ := by
  rw [← Equiv.sum_comp finProdFinEquiv f, Fintype.sum_prod_type]
  refine Finset.sum_congr rfl fun k _ => Finset.sum_congr rfl fun j _ => congrArg f (Fin.ext ?_)
  show j.val + b * k.val = k.val * b + j.val
  rw [Nat.mul_comm, Nat.add_comm]

/-- The same with the blocks' sums listed in the other nesting: the sum, over the position `j` inside a block, of
    the sum over the blocks. -/
theorem sum_blocks_comm {M : Type*} [AddCommMonoid M] (a b : ℕ) (f : Fin (a * b) → M) :
    ∑ i : Fin (a * b), f i = ∑ j : Fin b, ∑ k : Fin a, f ⟨k.val * b + j.val, block_index_lt k j⟩ :=
  (sum_blocks a b f).trans Finset.sum_comm

/-- `4096 = 4 * 1024`: a sum over 4096 indices, accumulated from zero one block of 1024 at a time — the blocks
    starting at 0, 1024, 2048 and 3072 — is the whole sum. -/
theorem sum_four_blocks {M : Type*} [AddCommMonoid M] (f : Fin 4096 → M) :
    ((((0 + ∑ j : Fin 1024, f ⟨j.val, by have := j.isLt; omega⟩)
          + ∑ j : Fin 1024, f ⟨1024 + j.val, by have := j.isLt; omega⟩)
        + ∑ j : Fin 1024, f ⟨2048 + j.val, by have := j.isLt; omega⟩)
      + ∑ j : Fin 1024, f ⟨3072 + j.val, by have := j.isLt; omega⟩)
    = ∑ i : Fin 4096, f i := by
  rw [zero_add]
  refine Eq.symm ((sum_blocks 4 1024 f).trans ?_)
  rw [Fin.sum_univ_four]
  refine congrArg₂ (· + ·) (congrArg₂ (· + ·) (congrArg₂ (· + ·) ?_ ?_) ?_) ?_
  · exact Finset.sum_congr rfl fun j _ => congrArg f (Fin.ext (by show 0 * 1024 + j.val = j.val; omega))
  · exact Finset.sum_congr rfl fun j _ => congrArg f (Fin.ext (by show 1 * 1024 + j.val = 1024 + j.val; omega))
  · exact Finset.sum_congr rfl fun j _ => congrArg f (Fin.ext (by show 2 * 1024 + j.val = 2048 + j.val; omega))
  · exact Finset.sum_congr rfl fun j _ => congrArg f (Fin.ext (by show 3 * 1024 + j.val = 3072 + j.val; omega))

end Cert.LibSumBlocks
-- ==== Proof.Spec.lean ====
/-
  The function both programs compute, on the extended reals.

  For image b, the two projections of box q's and box p's features by the upper and the lower half of W1,
  projI b q h = Σ_k x[b,q,k]·W1[k,h] and projJ b p h = Σ_k x[b,p,k]·W1[1280+k,h]; the first hidden layer on the
  pair (p, q), hid1 = max(projI b q + projJ b p + b1, 0); two more layers hid2 = max(hid1·W2 + b2, 0) and
  hid3 = max(hid2·W3 + b3, 0); and the result, the sum of hid3 over all 32·32 pairs.

  The pairs are also listed by one number i < 1024, the pair (i / 32, i % 32): in that listing the sum over all
  pairs is the sum over four runs of 256 consecutive numbers, run s holding the pairs with p in [8s, 8s + 8).
  Only commutativity and associativity of the addition are used to pass between the listings.
-/
import Idealize.ShloMosaic.PureOps.Ideal
import Idealize.ShloMosaic.PureOps.Ideal.Laws
import Idealize.ShloMosaic.Lib.ValueIdx
import proofs.«153987_j48962627174544_2_alg».proof.Proof.LibSumBlocks

open scoped BigOperators

noncomputable section

namespace Cert.Spec

open Idealize.ShloMosaic Idealize.ShloMosaic.ValueIdx

abbrev SX : Shape := ⟨3, ![32, 32, 1280]⟩
abbrev SW1 : Shape := ⟨2, ![2560, 1280]⟩
abbrev SV : Shape := ⟨1, ![1280]⟩
abbrev SW : Shape := ⟨2, ![1280, 1280]⟩
abbrev SO : Shape := ⟨2, ![32, 1280]⟩

/-- Row k of W1's upper half, and row k of its lower half. -/
abbrev lo (k : Fin 1280) : Fin 2560 := ⟨k.val, by have := k.isLt; omega⟩
abbrev hi (k : Fin 1280) : Fin 2560 := ⟨1280 + k.val, by have := k.isLt; omega⟩

/-- The float zero both programs clamp at and start their sums from. -/
abbrev z : EReal := Ideal.ofBits .f32 0x00000000#32

section
variable (X : SX.Idx → EReal) (W1 : SW1.Idx → EReal) (B1 : SV.Idx → EReal) (W2 : SW.Idx → EReal) (B2 : SV.Idx → EReal)
  (W3 : SW.Idx → EReal) (B3 : SV.Idx → EReal)

/-- Box q's features projected by W1's upper half. -/
def projI (b q : Fin 32) (h : Fin 1280) : EReal := ∑ k : Fin 1280, X (ix3 b q k) * W1 (ix2 (lo k) h)
/-- Box p's features projected by W1's lower half. -/
def projJ (b p : Fin 32) (h : Fin 1280) : EReal := ∑ k : Fin 1280, X (ix3 b p k) * W1 (ix2 (hi k) h)
/-- The first hidden layer on the pair (p, q). -/
def hid1 (b p q : Fin 32) (h : Fin 1280) : EReal := max (projI X W1 b q h + projJ X W1 b p h + B1 (ix1 h)) z
/-- The second. -/
def hid2 (b p q : Fin 32) (k : Fin 1280) : EReal :=
  max ((∑ h : Fin 1280, hid1 X W1 B1 b p q h * W2 (ix2 h k)) + B2 (ix1 k)) z
/-- The third. -/
def hid3 (b p q : Fin 32) (k : Fin 1280) : EReal :=
  max ((∑ h : Fin 1280, hid2 X W1 B1 W2 B2 b p q h * W3 (ix2 h k)) + B3 (ix1 k)) z

/-- The third layer on the pair numbered i. -/
def hid3At (b : Fin 32) (i : Fin 1024) (k : Fin 1280) : EReal :=
  hid3 X W1 B1 W2 B2 W3 B3 b ⟨i.val / 32, by have := i.isLt; omega⟩ ⟨i.val % 32, Nat.mod_lt _ (by decide)⟩ k

/-- The sum of the third layer over the 256 pairs of run s (any natural s; the runs are s = 0, 1, 2, 3). -/
def runSum (b : Fin 32) (s : ℕ) (k : Fin 1280) : EReal :=
  ∑ r : Fin 256, hid3 X W1 B1 W2 B2 W3 B3 b ⟨(8 * s + r.val / 32) % 32, Nat.mod_lt _ (by decide)⟩
    ⟨r.val % 32, Nat.mod_lt _ (by decide)⟩ k

/-- The result: the float zero plus the sum over all pairs. -/
def G : SO.Idx → EReal := fun j => z + ∑ p : Fin 32, ∑ q : Fin 32, hid3 X W1 B1 W2 B2 W3 B3 (j 0) p q (j 1)

end

section
variable (X : SX.Idx → EReal) (W1 : SW1.Idx → EReal) (B1 : SV.Idx → EReal) (W2 : SW.Idx → EReal) (B2 : SV.Idx → EReal)
  (W3 : SW.Idx → EReal) (B3 : SV.Idx → EReal)

/-- The sum over all pairs, listed by one number. -/
theorem sum_pairs (b : Fin 32) (k : Fin 1280) :
    ∑ p : Fin 32, ∑ q : Fin 32, hid3 X W1 B1 W2 B2 W3 B3 b p q k = ∑ i : Fin 1024, hid3At X W1 B1 W2 B2 W3 B3 b i k := by
  refine Eq.symm ((Cert.LibSumBlocks.sum_blocks 32 32 (fun i : Fin (32 * 32) => hid3At X W1 B1 W2 B2 W3 B3 b i k)).trans ?_)
  refine Finset.sum_congr rfl fun p _ => Finset.sum_congr rfl fun q _ => ?_
  unfold hid3At
  have hp := p.isLt; have hq := q.isLt
  congr 1 <;> apply Fin.ext <;> simp only <;> omega

/-- The four runs' sums added up are the sum over all pairs. -/
theorem sum_runs (b : Fin 32) (k : Fin 1280) :
    ∑ s ∈ Finset.range 4, runSum X W1 B1 W2 B2 W3 B3 b s k = ∑ p : Fin 32, ∑ q : Fin 32, hid3 X W1 B1 W2 B2 W3 B3 b p q k := by
  rw [sum_pairs, Finset.sum_range]
  refine Eq.symm ((Cert.LibSumBlocks.sum_blocks 4 256 (fun i : Fin (4 * 256) => hid3At X W1 B1 W2 B2 W3 B3 b i k)).trans ?_)
  refine Finset.sum_congr rfl fun s _ => ?_
  unfold runSum
  refine Finset.sum_congr rfl fun r _ => ?_
  unfold hid3At
  have hs := s.isLt; have hr := r.isLt
  congr 1 <;> apply Fin.ext <;> simp only <;> omega

end

end Cert.Spec

end
-- ==== Proof.Chunks.lean ====
/-
  The carried buffers on the extended reals: after chunk s of image b the two projection buffers hold projI and
  projJ of image b, and the output row holds the float zero plus the sums of the runs 0, …, s of the third layer.

  One chunk's work adds run s of the image to the output row: its slab's row r is the pair (8s + r / 32, r % 32), and
  the three layers on that row are hid1, hid2, hid3 of that pair. By induction on the grid point: a first chunk
  stores the projections of its image and starts the row from zero; a later chunk finds them and adds its run.
-/
import proofs.«153987_j48962627174544_2_alg».proof.Proof.Points
import proofs.«153987_j48962627174544_2_alg».proof.Proof.Payloads
import proofs.«153987_j48962627174544_2_alg».proof.Proof.Spec

noncomputable section

open Idealize.ShloMosaic Idealize.ShloMosaic.TcCoe Idealize.SL.Sem

namespace Cert.KernelValue

open Cert.KernelIdeal Cert.KernelIdeal.Gen Idealize.ShloMosaic.ValueIdx

/-! ## The halves of the first weight matrix, and the chunk's rows -/

theorem wLo_apply (x1 : FVec Ideal S2560x1280 .bf16) (k h : Fin 1280) :
    wLo (F := Ideal) x1 (ix2 k h) = x1 (ix2 (Spec.lo k) h) := by
  unfold wLo
  refine congrArg x1 (funext fun a => Fin.ext ?_)
  match a with
  | ⟨0, _⟩ => show 0 + 1 * k.val = k.val; omega
  | ⟨1, _⟩ => show 0 + 1 * h.val = h.val; omega

theorem wHi_apply (x1 : FVec Ideal S2560x1280 .bf16) (k h : Fin 1280) :
    wHi (F := Ideal) x1 (ix2 k h) = x1 (ix2 (Spec.hi k) h) := by
  unfold wHi
  refine congrArg x1 (funext fun a => Fin.ext ?_)
  match a with
  | ⟨0, _⟩ => show 1280 + 1 * k.val = 1280 + k.val; omega
  | ⟨1, _⟩ => show 0 + 1 * h.val = h.val; omega

/-- The chunk's row p of the second projection is row 8s + p of the buffer. -/
theorem ajRows_apply (i : grid0.Coords) (s : ℕ) (hs : s < 4) (h0 : k0_off1 i (0 : Fin 2) = 8 * s) (h1 : k0_off1 i (1 : Fin 2) = 0)
    (xs1 : FVec Ideal S32x1280 .f32) (p : Fin 8) (h : Fin 1280) :
    ajRows (F := Ideal) i xs1 (ix2 p h) = xs1 (ix2 ⟨(8 * s + p.val) % 32, Nat.mod_lt _ (by decide)⟩ h) := by
  unfold ajRows
  refine congrArg xs1 (funext fun a => Fin.ext ?_)
  have hp := p.isLt
  match a with
  | ⟨0, _⟩ => show k0_off1 i (0 : Fin 2) + 1 * p.val = (8 * s + p.val) % 32; rw [h0]; omega
  | ⟨1, _⟩ => show k0_off1 i (1 : Fin 2) + 1 * h.val = h.val; rw [h1]; omega

/-! ## One chunk's work -/

section Chunk
variable (X : Spec.SX.Idx → EReal) (W1 : Spec.SW1.Idx → EReal) (B1 : Spec.SV.Idx → EReal) (W2 : Spec.SW.Idx → EReal)
  (B2 : Spec.SV.Idx → EReal) (W3 : Spec.SW.Idx → EReal) (B3 : Spec.SV.Idx → EReal)

/-- On the projections of image b, chunk s adds run s of the third layer to the output row. -/
theorem step_apply (i : grid0.Coords) (s : ℕ) (hs : s < 4) (hoff0 : k0_off1 i (0 : Fin 2) = 8 * s)
    (hoff1 : k0_off1 i (1 : Fin 2) = 0) (b : Fin 32) (xs1 xs0 : FVec Ideal S32x1280 .f32) (acc : FVec Ideal S1x1x1280 .f32)
    (h0 : ∀ q h, xs0 (ix2 q h) = Spec.projI X W1 b q h) (h1 : ∀ p h, xs1 (ix2 p h) = Spec.projJ X W1 b p h)
    (k : Fin 1280) :
    step (F := Ideal) i xs1 xs0 B1 W2 B2 W3 B3 acc (ix3 (0 : Fin 1) (0 : Fin 1) k)
      = acc (ix3 (0 : Fin 1) (0 : Fin 1) k) + Spec.runSum X W1 B1 W2 B2 W3 B3 b s k := by
  unfold step
  refine (pay2_apply _ W3 B3 acc k).trans ?_
  refine congrArg (acc (ix3 (0 : Fin 1) (0 : Fin 1) k) + ·) ?_
  unfold Spec.runSum
  refine Finset.sum_congr rfl fun r _ => ?_
  unfold Spec.hid3
  refine congrArg₂ max (congrArg₂ (· + ·) (Finset.sum_congr rfl fun h _ => congrArg (· * W3 (ix2 h k)) ?_) rfl) rfl
  refine (pay1_apply _ _ (ix2 r h)).trans ?_
  unfold Spec.hid2
  refine congrArg₂ max ((pay8_apply _ W2 B2 r h).trans ?_) (pay9_apply _)
  refine congrArg₂ (· + ·) (Finset.sum_congr rfl fun h' _ => congrArg (· * W2 (ix2 h' h)) ?_) rfl
  refine (pay7_apply _ xs0 B1 r h').trans ?_
  unfold Spec.hid1
  refine congrArg₂ max (congrArg₂ (· + ·) (congrArg₂ (· + ·) (h0 _ _) ?_) rfl) rfl
  exact (ajRows_apply i s hs hoff0 hoff1 xs1 (rowP r) h').trans (h1 _ _)

end Chunk

/-! ## The carried buffers after each point -/

section Carried
variable (m : (ℓ : Loc nD τ sig) → Buf (Elt Ideal) ℓ) (c : Dev nD)

/-- The image a grid point works on. -/
abbrev img (n : ℕ) (hn : n < cfg0.N) : Fin 32 := ⟨n / 4, by have : cfg0.N = 128 := N_0; omega⟩

/-- After point n: the projections of its image in the two buffers, and in the output row the float zero plus the
    image's runs up to the point's chunk. -/
structure Carried (n : ℕ) (hn : n < cfg0.N) : Prop where
  ai : ∀ (q : Fin 32) (h : Fin 1280), (outsAt0 m c n hn).2.1 (ix2 q h)
      = Spec.projI (V m c main_arg0) (V m c main_v0) (img n hn) q h
  aj : ∀ (p : Fin 32) (h : Fin 1280), (outsAt0 m c n hn).2.2 (ix2 p h)
      = Spec.projJ (V m c main_arg0) (V m c main_v0) (img n hn) p h
  out : ∀ k : Fin 1280, (outsAt0 m c n hn).1 (ix3 (0 : Fin 1) (0 : Fin 1) k)
      = z + ∑ s ∈ Finset.range (n % 4 + 1), Spec.runSum (V m c main_arg0) (V m c main_v0) (V m c main_arg2) (V m c main_v1)
          (V m c main_arg4) (V m c main_v2) (V m c main_arg6) (img n hn) s k

/-- A first chunk's projections are those of its image. -/
theorem first_ai (t : Fin cfg0.N) (q : Fin 32) (h : Fin 1280) :
    k0_pay4 (F := Ideal) (iblk m c 0 t) (wLo (iblk m c 1 t)) (ix2 q h)
      = Spec.projI (V m c main_arg0) (V m c main_v0) (img t.val t.isLt) q h := by
  refine (pay4_apply _ _ q h).trans ?_
  unfold Spec.projI
  refine Finset.sum_congr rfl fun k _ => ?_
  rw [blk_image m c t (img t.val t.isLt) rfl q k, wLo_apply, blk_w1]

theorem first_aj (t : Fin cfg0.N) (p : Fin 32) (h : Fin 1280) :
    k0_pay5 (F := Ideal) (iblk m c 0 t) (wHi (iblk m c 1 t)) (ix2 p h)
      = Spec.projJ (V m c main_arg0) (V m c main_v0) (img t.val t.isLt) p h := by
  refine (pay5_apply _ _ p h).trans ?_
  unfold Spec.projJ
  refine Finset.sum_congr rfl fun k _ => ?_
  rw [blk_image m c t (img t.val t.isLt) rfl p k, wHi_apply, blk_w1]

/-- After a first chunk. -/
theorem carried_first (t : Fin cfg0.N) (h0 : t.val % 4 = 0) : Carried m c t.val t.isLt := by
  obtain ⟨e1, e2, e3⟩ := first_vals m c t h0
  obtain ⟨-, -, -, -, -, -, -, -, -, -, -, -, -, -, -, o0, o1⟩ := idx_facts t
  refine ⟨fun q h => ?_, fun p h => ?_, fun k => ?_⟩
  · rw [e1]; exact first_ai m c t q h
  · rw [e2]; exact first_aj m c t p h
  · rw [e3, blk_b1, blk_w2, blk_b2, blk_w3, blk_b3]
    refine (step_apply (V m c main_arg0) (V m c main_v0) (V m c main_arg2) (V m c main_v1) (V m c main_arg4) (V m c main_v2)
      (V m c main_arg6) (grid0.coords t) (t.val % 4) (Nat.mod_lt _ (by decide)) o0 o1 (img t.val t.isLt) _ _ _
      (first_ai m c t) (first_aj m c t) k).trans ?_
    rw [h0, Finset.sum_range_one, pay6_apply]

/-- After a later chunk, from the point before. -/
theorem carried_later (n : ℕ) (hn : n + 1 < cfg0.N) (h0 : ¬(n + 1) % 4 = 0)
    (ih : Carried m c n (Nat.lt_of_succ_lt hn)) : Carried m c (n + 1) hn := by
  obtain ⟨e1, e2, e3⟩ := later_vals m c ⟨n + 1, hn⟩ h0
  obtain ⟨-, -, -, -, -, -, -, -, -, -, -, -, -, -, -, o0, o1⟩ := idx_facts (⟨n + 1, hn⟩ : Fin cfg0.N)
  have himg : img (n + 1) hn = img n (Nat.lt_of_succ_lt hn) := Fin.ext (by show (n + 1) / 4 = n / 4; omega)
  have hmod : (n + 1) % 4 = n % 4 + 1 := by omega
  refine ⟨fun q h => ?_, fun p h => ?_, fun k => ?_⟩
  · rw [himg]; exact (congrFun e1 _).trans (ih.ai q h)
  · rw [himg]; exact (congrFun e2 _).trans (ih.aj p h)
  · rw [himg]
    refine (congrFun e3 _).trans ?_
    rw [blk_b1, blk_w2, blk_b2, blk_w3, blk_b3]
    refine (step_apply (V m c main_arg0) (V m c main_v0) (V m c main_arg2) (V m c main_v1) (V m c main_arg4) (V m c main_v2)
      (V m c main_arg6) (grid0.coords ⟨n + 1, hn⟩) ((n + 1) % 4) (Nat.mod_lt _ (by decide)) o0 o1
      (img n (Nat.lt_of_succ_lt hn)) _ _ _ ih.ai ih.aj k).trans ?_
    refine (congrArg (· + Spec.runSum (V m c main_arg0) (V m c main_v0) (V m c main_arg2) (V m c main_v1) (V m c main_arg4)
      (V m c main_v2) (V m c main_arg6) (img n (Nat.lt_of_succ_lt hn)) ((n + 1) % 4) k) (ih.out k)).trans ?_
    rw [hmod, Finset.sum_range_succ _ (n % 4 + 1), add_assoc]

/-- After every point. -/
theorem carried : ∀ (n : ℕ) (hn : n < cfg0.N), Carried m c n hn := by
  intro n
  induction n with
  | zero => intro hn; exact carried_first m c ⟨0, hn⟩ rfl
  | succ n ih =>
    intro hn
    by_cases h0 : (n + 1) % 4 = 0
    · exact carried_first m c ⟨n + 1, hn⟩ h0
    · exact carried_later m c n hn h0 (ih (Nat.lt_of_succ_lt hn))

end Carried

end Cert.KernelValue

end
-- ==== Proof.KernelRun.lean ====
/-
  The kernel's result array is G of its arguments.

  The output window's block at point t is row t / 4 of the [32, 1, 1280] array the kernel writes, and it is written
  back after the image's last chunk, when the row holds the float zero plus all four runs of the image: the sum over
  all pairs. Every row is some image's, so the whole array is known; the reshape after the kernel drops the unit axis;
  and the three weight arrays the kernel reads are the arguments themselves, a change of float format being the
  identity on the extended reals.
-/
import proofs.«153987_j48962627174544_2_alg».proof.Proof.Chunks
import Idealize.ShloMosaic.Lib.StableHlo.Run

noncomputable section

open Idealize.ShloMosaic Idealize.ShloMosaic.TcCoe Idealize.SL.Sem
open Idealize.ShloMosaic.Pipeline (Dat)

namespace Cert.KernelValue

open Cert.KernelIdeal Cert.KernelIdeal.Gen Idealize.ShloMosaic.ValueIdx

variable (m : (ℓ : Loc nD τ sig) → Buf (Elt Ideal) ℓ) (ρ : Dev nD → PrngReg) (c : Dev nD)

/-- G of the arrays as the kernel's region finds them. -/
abbrev GV : Spec.SO.Idx → EReal :=
  Spec.G (V m c main_arg0) (V m c main_v0) (V m c main_arg2) (V m c main_v1) (V m c main_arg4) (V m c main_v2) (V m c main_arg6)

/-- The array the kernel writes: row b, column k, with a unit axis between. -/
def rows : Buf (Elt Ideal) ((c : Thread nD τ).loc main_v3) := fun i => GV m c (ix2 (i 0) (i 2))

/-- What the last chunk of an image writes back is the image's row of it. -/
theorem flushed_eq (t : Fin cfg0.N) (hf : (cfg0.win 7).flush t = true) :
    (dats m 0 c).flushed 7 t = ((cfg0.win 7).blk t).view.read (Elt Ideal) (rows m c) := by
  have hN : cfg0.N = 128 := N_0
  have h3 : t.val % 4 = 3 := (flush0_7 t).mp hf
  obtain ⟨-, -, -, -, -, -, -, -, -, -, -, -, e0, e1, e2, -⟩ := idx_facts t
  show (cfg0.win 7).cut (grid0.coords t) ((dats m 0 c).after 7 t) = _
  rw [after0_7]
  funext y
  obtain ⟨u, v, k, rfl⟩ : ∃ (u v : Fin 1) (k : Fin 1280), y = ix3 u v k := ⟨y 0, y 1, y 2, eq_ix3 y⟩
  obtain rfl : u = 0 := Subsingleton.elim _ _
  obtain rfl : v = 0 := Subsingleton.elim _ _
  rw [View.read_apply]
  show (outsAt0 m c t.val t.isLt).1 (ix3 (0 : Fin 1) (0 : Fin 1) k) = rows m c (((cfg0.win 7).blk t).view.emb (ix3 (0 : Fin 1) (0 : Fin 1) k))
  have hemb : ((cfg0.win 7).blk t).view.emb (ix3 (0 : Fin 1) (0 : Fin 1) k) = ix3 (img t.val t.isLt) (0 : Fin 1) k := by
    funext a; apply Fin.ext
    match a with
    | ⟨0, _⟩ => show win0_7.index t (0 : Fin 3) * 1 + 1 * 0 = t.val / 4; omega
    | ⟨1, _⟩ => show win0_7.index t (1 : Fin 3) * 1 + 1 * 0 = 0; omega
    | ⟨2, _⟩ => show win0_7.index t (2 : Fin 3) * 1280 + 1 * k.val = k.val; omega
  rw [hemb, (carried m c t.val t.isLt).out k, h3]
  show z + _ = Spec.z + ∑ p : Fin 32, ∑ q : Fin 32, Spec.hid3 _ _ _ _ _ _ _ (img t.val t.isLt) p q k
  rw [Spec.sum_runs]

/-- An index of the written array is in point t's block iff each coordinate is in the block's range. -/
theorem mem_blk (t : Fin cfg0.N) (i : S32x1x1280.Idx) :
    i ∈ ((cfg0.win 7).blk t).view.set ↔ ∀ a : Fin 3, win0_7.index t a * S1x1x1280.size a ≤ (i a).val ∧ (i a).val < win0_7.index t a * S1x1x1280.size a + S1x1x1280.size a := by
  show i ∈ ((View.whole main_v3).slice (win0_7.rect t)).set ↔ _
  rw [View.set_slice_whole, Rect.mem_set_unit]
  exact Iff.rfl

/-- Every row is written back by its image's last chunk. -/
theorem cover (i : S32x1x1280.Idx) :
    ∃ t : Fin cfg0.N, (cfg0.win 7).flush t = true ∧ i ∈ ((cfg0.win 7).blk t).view.set := by
  have hN : cfg0.N = 128 := N_0
  have hi0 : (i 0).val < 32 := (i 0).isLt
  have hi1 : (i 1).val < 1 := (i 1).isLt
  have hi2 : (i 2).val < 1280 := (i 2).isLt
  let t : Fin cfg0.N := ⟨4 * (i 0).val + 3, by omega⟩
  obtain ⟨-, -, -, -, -, -, -, -, -, -, -, -, e0, e1, e2, -⟩ := idx_facts t
  have ht : t.val = 4 * (i 0).val + 3 := rfl
  refine ⟨t, (flush0_7 t).mpr (by omega), ?_⟩
  rw [mem_blk]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 1 ≤ (i 1).val ∧ (i 1).val < win0_7.index t (1 : Fin 3) * 1 + 1; omega
  | ⟨2, _⟩ => show win0_7.index t (2 : Fin 3) * 1280 ≤ (i 2).val ∧ (i 2).val < win0_7.index t (2 : Fin 3) * 1280 + 1280; omega

/-- So the array the kernel writes ends holding its rows. -/
theorem written (c : Dev nD) : (dats m 0 c).arrAt 7 cfg0.N = rows m c :=
  (dats m 0 c).arrAt_eq_of_cover 7 (rows m c) (flushed_eq m c) (cover)

/-! ## The arrays the region finds, and the reshape after it -/

/-- The bf16 copies of the three weight arrays are, on the extended reals, the arguments. -/
theorem V_w1 : (V m c main_v0 : S2560x1280.Idx → EReal) = m ((c : Thread nD τ).loc main_arg1) := by
  dsimp only [Gen.V, Gen.V0]
  simp only [Gen.hostOps0, List.flatten_cons, List.flatten_nil, List.append_nil, List.cons_append, List.nil_append]
  after_results
  rfl
theorem V_w2 : (V m c main_v1 : S1280x1280.Idx → EReal) = m ((c : Thread nD τ).loc main_arg3) := by
  dsimp only [Gen.V, Gen.V0]
  simp only [Gen.hostOps0, List.flatten_cons, List.flatten_nil, List.append_nil, List.cons_append, List.nil_append]
  after_results
  rfl
theorem V_w3 : (V m c main_v2 : S1280x1280.Idx → EReal) = m ((c : Thread nD τ).loc main_arg5) := by
  dsimp only [Gen.V, Gen.V0]
  simp only [Gen.hostOps0, List.flatten_cons, List.flatten_nil, List.append_nil, List.cons_append, List.nil_append]
  after_results
  rfl

/-- G of the arguments. -/
abbrev GM : Spec.SO.Idx → EReal :=
  Spec.G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

theorem GV_eq : GV m c = GM m c := by
  unfold GV GM
  rw [V_w1, V_w2, V_w3, V_main_arg0, V_main_arg2, V_main_arg4, V_main_arg6]

/-- The result: the written array with its unit axis dropped. -/
theorem result (c : Dev nD) :
    Pipeline.afterTail₀ cfgs (dats m) 0 (V0 m) [hostOps1] c main_v4 = GM m c := by
  unfold Pipeline.afterTail₀
  show StableHlo.after hostOps1 _ (Proc.devRef .tc main_v4) = _
  after_results
  rw [(Pipeline.withArrays_arr spec0 launch0.win.arr_inj c _ _ 7).trans (written m c)]
  funext j
  obtain ⟨b, k, rfl⟩ : ∃ (b : Fin 32) (k : Fin 1280), j = ix2 b k := ⟨j 0, j 1, eq_ix2 j⟩
  refine (shapeCast_apply _ shapeCasts_S32x1x1280_S32x1280 (ix2 b k) (ix3 b (0 : Fin 1) k) (by
    rw [Shape.rowMajor_val_three, Shape.rowMajor_val_two]
    show (b.val * 1 + 0) * 1280 + k.val = b.val * 1280 + k.val
    omega)).trans ?_
  show GV m c (ix2 b k) = GM m c (ix2 b k)
  rw [GV_eq]

/-! ## The run, read -/

/-- Every weakly fair execution of the kernel's program ends with the result at G of the arguments and the arguments
    unchanged. -/
theorem run : θ_run defs (onTc (τ := τ) (main (F := Ideal))) ⟨m, fun _ => 0, ρ⟩ fun r => ∀ c : Dev nD,
      r.2.mem ((c : Thread nD τ).loc main_v4) = GM m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨
      ((h c).2 main_v4 (Pipeline.mem_restRefs_of main_v4 (by decide) (by decide))).trans (result m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c),
      ((h c).1 6).trans (((dats m 0 c).arrAt_in 6 rfl _).trans ((A_eq m c 6).trans (V_main_arg6 m c)))⟩)
    (run_main m ρ)

end Cert.KernelValue

end
-- ==== Proof.RefValue.lean ====
/-
  The reference computes the function G of Spec.lean.

  Read one operation at a time at an index: the two einsums against the halves of W1 are projI and projJ (the
  slices of W1 read rows k and 1280 + k), their broadcasts over the missing box axis and b1's over all three leading
  axes give, under the maximum with zero, hid1 at (b, p, q); each further einsum over the hidden axis, bias and
  maximum gives hid2 and hid3; and the sum over the two box axes from the float zero is z plus the double sum.
-/
import proofs.«153987_j48962627174544_2_alg».proof.Proof.Gen.ReferenceIdeal.Read
import proofs.«153987_j48962627174544_2_alg».proof.Proof.Spec

noncomputable section

namespace Cert.RefValue

open Cert.ReferenceIdeal Cert.ReferenceIdeal.Gen Cert.ReferenceIdeal.Read Idealize.ShloMosaic Idealize.ShloMosaic.ValueIdx Cert.Spec

variable (x0 : S32x32x1280.Idx → EReal) (x1 : S2560x1280.Idx → EReal) (x2 : S1280.Idx → EReal)
  (x3 : S1280x1280.Idx → EReal) (x4 : S1280.Idx → EReal) (x5 : S1280x1280.Idx → EReal) (x6 : S1280.Idx → EReal)

/-! ## Where each operand is read -/

section Indices
variable (b p q : Fin 32) (h k : Fin 1280)

theorem ixI_l : lidx_main_v1 (idx_main_v4 (idx_main_v6 (ix4 b p q h))) k = ix3 b q k :=
  funext fun a => Fin.ext (by match a with | ⟨0, _⟩ => rfl | ⟨1, _⟩ => rfl | ⟨2, _⟩ => rfl)
theorem ixI_r : idx_main_v0 (ridx_main_v1 (idx_main_v4 (idx_main_v6 (ix4 b p q h))) k) = ix2 (lo k) h :=
  funext fun a => Fin.ext (by match a with | ⟨0, _⟩ => rfl | ⟨1, _⟩ => rfl)
theorem ixJ_l : lidx_main_v3 (idx_main_v5 (idx_main_v7 (ix4 b p q h))) k = ix3 b p k :=
  funext fun a => Fin.ext (by match a with | ⟨0, _⟩ => rfl | ⟨1, _⟩ => rfl | ⟨2, _⟩ => rfl)
theorem ixJ_r : idx_main_v2 (ridx_main_v3 (idx_main_v5 (idx_main_v7 (ix4 b p q h))) k) = ix2 (hi k) h :=
  funext fun a => Fin.ext (by match a with | ⟨0, _⟩ => rfl | ⟨1, _⟩ => rfl)
theorem ixB1 : idx_main_v9 (idx_main_v10 (ix4 b p q h)) = ix1 h :=
  funext fun a => Fin.ext (by match a with | ⟨0, _⟩ => rfl)
theorem ix13_l : lidx_main_v13 (ix4 b p q k) h = ix4 b p q h :=
  funext fun a => Fin.ext (by match a with | ⟨0, _⟩ => rfl | ⟨1, _⟩ => rfl | ⟨2, _⟩ => rfl | ⟨3, _⟩ => rfl)
theorem ix13_r : ridx_main_v13 (ix4 b p q k) h = ix2 h k :=
  funext fun a => Fin.ext (by match a with | ⟨0, _⟩ => rfl | ⟨1, _⟩ => rfl)
theorem ixB2 : idx_main_v14 (idx_main_v15 (ix4 b p q k)) = ix1 k :=
  funext fun a => Fin.ext (by match a with | ⟨0, _⟩ => rfl)
theorem ix18_l : lidx_main_v18 (ix4 b p q k) h = ix4 b p q h :=
  funext fun a => Fin.ext (by match a with | ⟨0, _⟩ => rfl | ⟨1, _⟩ => rfl | ⟨2, _⟩ => rfl | ⟨3, _⟩ => rfl)
theorem ix18_r : ridx_main_v18 (ix4 b p q k) h = ix2 h k :=
  funext fun a => Fin.ext (by match a with | ⟨0, _⟩ => rfl | ⟨1, _⟩ => rfl)
theorem ixB3 : idx_main_v19 (idx_main_v20 (ix4 b p q k)) = ix1 k :=
  funext fun a => Fin.ext (by match a with | ⟨0, _⟩ => rfl)

end Indices

/-! ## The three layers -/

/-- The first relu's result at (b, p, q, h) is hid1. -/
theorem v12_apply (b p q : Fin 32) (h : Fin 1280) :
    val_main_v12 (F := Ideal) x0 x1 x2 (ix4 b p q h) = hid1 x0 x1 x2 b p q h := by
  rw [val_main_v12_apply, val_main_v11_apply, val_main_v8_apply, val_main_v6_apply, val_main_v4_apply,
    val_main_v1_apply, val_main_v7_apply, val_main_v5_apply, val_main_v3_apply, val_main_v10_apply,
    val_main_v9_apply, val_main_call0_v0_apply, val_main_call0_cst_apply]
  simp only [val_main_v0_apply, val_main_v2_apply, ixI_l, ixI_r, ixJ_l, ixJ_r, ixB1, Ideal.addf_def,
    Ideal.maximumf_def, Ideal.ofBits_def]
  rfl

/-- The second relu's result at (b, p, q, k) is hid2. -/
theorem v17_apply (b p q : Fin 32) (k : Fin 1280) :
    val_main_v17 (F := Ideal) x0 x1 x2 x3 x4 (ix4 b p q k) = hid2 x0 x1 x2 x3 x4 b p q k := by
  rw [val_main_v17_apply, val_main_v16_apply, val_main_v13_apply, val_main_v15_apply, val_main_v14_apply,
    val_main_call1_v0_apply, val_main_call1_cst_apply]
  simp only [ix13_l, ix13_r, ixB2, v12_apply, Ideal.addf_def, Ideal.maximumf_def, Ideal.ofBits_def]
  rfl

/-- The third relu's result at (b, p, q, k) is hid3. -/
theorem v22_apply (b p q : Fin 32) (k : Fin 1280) :
    val_main_v22 (F := Ideal) x0 x1 x2 x3 x4 x5 x6 (ix4 b p q k) = hid3 x0 x1 x2 x3 x4 x5 x6 b p q k := by
  rw [val_main_v22_apply, val_main_v21_apply, val_main_v18_apply, val_main_v20_apply, val_main_v19_apply,
    val_main_call2_v0_apply, val_main_call2_cst_apply]
  simp only [ix18_l, ix18_r, ixB3, v17_apply, Ideal.addf_def, Ideal.maximumf_def, Ideal.ofBits_def]
  rfl

/-! ## The sum over the two box axes -/

/-- An index of the four-axis array with its two box coordinates dropped. -/
theorem drop_ix4 (b p q : Fin 32) (k : Fin 1280) :
    reducesTo_S32x32x32x1280_S32x1280_d1_2.drop (ix4 b p q k) = ix2 b k :=
  funext fun a => Fin.ext (by match a with | ⟨0, _⟩ => rfl | ⟨1, _⟩ => rfl)

/-- The host's sum over axes 1 and 2 from an initial value c, read at (b, k): c plus the double sum over the boxes. -/
theorem reduce_boxes (y : S32x32x32x1280.Idx → EReal) (c : EReal) (b : Fin 32) (k : Fin 1280) :
    Ideal.hostReduceAdd reducesTo_S32x32x32x1280_S32x1280_d1_2 y c (ix2 b k)
      = c + ∑ p : Fin 32, ∑ q : Fin 32, y (ix4 b p q k) := by
  unfold Ideal.hostReduceAdd
  refine congrArg (c + ·) ?_
  rw [← Fintype.sum_prod_type']
  refine Eq.symm (Finset.sum_bij (fun (pq : Fin 32 × Fin 32) _ => ix4 b pq.1 pq.2 k) ?_ ?_ ?_ ?_)
  · intro pq _
    rw [Finset.mem_filter]
    exact ⟨Finset.mem_univ _, drop_ix4 _ _ _ _⟩
  · intro a _ b' _ hab
    exact Prod.ext (congrFun hab 1) (congrFun hab 2)
  · intro i hi
    have hd := (Finset.mem_filter.mp hi).2
    refine ⟨(i 1, i 2), Finset.mem_univ _, ?_⟩
    have h0 : i 0 = b := Fin.ext (congrArg (fun f : S32x1280.Idx => (f 0).val) hd)
    have h3 : i 3 = k := Fin.ext (congrArg (fun f : S32x1280.Idx => (f 1).val) hd)
    rw [← h0, ← h3]
    exact (eq_ix4 i).symm
  · intro pq _; rfl

/-- The reference's result is G of its arguments. -/
theorem result_eq :
    val_main_v23 (F := Ideal) x0 x1 x2 x3 x4 x5 x6 = G x0 x1 x2 x3 x4 x5 x6 := by
  funext j
  obtain ⟨b, k, rfl⟩ : ∃ (b : Fin 32) (k : Fin 1280), j = ix2 b k := ⟨j 0, j 1, eq_ix2 j⟩
  unfold val_main_v23 Host.reduceAdd
  rw [Ideal.hostReduceAdd_def, reduce_boxes]
  unfold G
  simp only [v22_apply]
  rfl

end Cert.RefValue

end
-- ==== Proof.lean ====
/-
  The kernel and its reference compute one function on the extended reals.

  For each image b both form the two projections of the image's 32 boxes by the halves of W1, the first hidden layer
  max(projI[q] + projJ[p] + b1, 0) on every pair (p, q) of boxes, two more dense layers with a clamp at zero, and the
  sum of the last layer over all 32·32 pairs (Proof/Spec.lean, the function G). The reference does it in one
  piece: two einsums, broadcasts, two einsums over the hidden axis, and a sum over the two box axes
  (Proof/RefValue.lean). The kernel walks a grid of 32 images × 4 chunks, keeps the two projections of the current image
  in two buffers it fills at the image's first chunk, and at each chunk adds to the image's output row the sum over the
  256 pairs whose first box is one of the chunk's 8 (Proof/Pieces.lean, Proof/Points.lean, Proof/Chunks.lean); the row
  is written back after the fourth chunk (Proof/KernelRun.lean). The two sums list the same 1024 terms in two orders,
  and addition of extended reals is commutative and associative, so they agree; a change of float format is the identity
  at the ideal values, so the kernel's narrower matrix inputs change nothing. The precondition is not needed.
-/
import proofs.«153987_j48962627174544_2_alg».proof.Defs
import proofs.«153987_j48962627174544_2_alg».proof.Proof.Gen.Kernel
import proofs.«153987_j48962627174544_2_alg».proof.Proof.Gen.Kernel.Skeleton
import proofs.«153987_j48962627174544_2_alg».proof.Proof.Gen.Kernel.Launch
import proofs.«153987_j48962627174544_2_alg».proof.Proof.Gen.Kernel.Points
import proofs.«153987_j48962627174544_2_alg».proof.Proof.Gen.Kernel.Frame
import proofs.«153987_j48962627174544_2_alg».proof.Proof.Gen.KernelIdeal
import proofs.«153987_j48962627174544_2_alg».proof.Proof.Gen.KernelIdeal.Skeleton
import proofs.«153987_j48962627174544_2_alg».proof.Proof.Gen.KernelIdeal.Launch
import proofs.«153987_j48962627174544_2_alg».proof.Proof.Gen.KernelIdeal.Points
import proofs.«153987_j48962627174544_2_alg».proof.Proof.Gen.KernelIdeal.Frame
import proofs.«153987_j48962627174544_2_alg».proof.Proof.Gen.ReferenceIdeal
import proofs.«153987_j48962627174544_2_alg».proof.Proof.Gen.ReferenceIdeal.Run
import proofs.«153987_j48962627174544_2_alg».proof.Proof.Gen.ReferenceIdeal.Read
import proofs.«153987_j48962627174544_2_alg».proof.Proof.Gen.Pre_finite_inputs
import proofs.«153987_j48962627174544_2_alg».proof.Proof.KernelRun
import proofs.«153987_j48962627174544_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both runs end with the result at G of the arguments, which agree. -/
theorem algebraic : Cert.algebraic_KernelIdeal_ReferenceIdeal := by
  intro m ρ m' ρ' _ hagree
  refine ⟨fun c => Cert.KernelValue.GM m c, Cert.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.RefValue.result_eq, (hagree c).1, (hagree c).2.1, (hagree c).2.2.1,
    (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
